-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S1000x64 : Shape := ⟨2, ![1000, 64]⟩
abbrev S64x64 : Shape := ⟨2, ![64, 64]⟩
abbrev S64 : Shape := ⟨1, ![64]⟩
abbrev S128x10 : Shape := ⟨2, ![128, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg20 : FVec F S128x10 .f32) (main_arg21 : FVec F S10 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S128x10 .f32 := Host.absf main_arg20
  let main_cst_34 : FVec F S_ .f32 := constant S_ .f32 0x7F800000#32
  let main_v90 : FVec F S128x10 .f32 := broadcastInDim S128x10 ![] bcast_S_S128x10 main_cst_34
  let main_v91 : IVec S128x10 1 := cmpf .olt main_v89 main_v90
  let main_c_35 : IVec S_ 1 := constantI S_ 1 1#1
  let main_v92 : IVec S_ 1 := (fun x v => Host.reduce IntOp.andi x v reducesTo_S128x10_S_d0_1 h_S_) main_v91 main_c_35
  let main_v93 : IVec S_ 1 := andi main_v88 main_v92
  let main_v94 : FVec F S10 .f32 := Host.absf main_arg21
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  main_v98

def fn_part4 {F : FTy → Type} [FloatOps F] (main_arg16 : FVec F S64 .f32) (main_arg17 : FVec F S64 .f32) (main_arg18 : FVec F S64x64 .f32) (main_arg19 : FVec F S64 .f32) (main_arg20 : FVec F S128x10 .f32) (main_arg21 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S64 .f32) (main_arg14 : FVec F S64 .f32) (main_arg15 : FVec F S64 .f32) (main_arg16 : FVec F S64 .f32) (main_arg17 : FVec F S64 .f32) (main_arg18 : FVec F S64x64 .f32) (main_arg19 : FVec F S64 .f32) (main_arg20 : FVec F S128x10 .f32) (main_arg21 : FVec F S10 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_arg18 : FVec F S64x64 .f32) (main_arg19 : FVec F S64 .f32) (main_arg20 : FVec F S128x10 .f32) (main_arg21 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_arg18 : FVec F S64x64 .f32) (main_arg19 : FVec F S64 .f32) (main_arg20 : FVec F S128x10 .f32) (main_arg21 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x64 .f32) (main_arg1 : IVec S2x1200000 32) (main_arg2 : IVec S100000 32) (main_arg3 : FVec F S1000x64 .f32) (main_arg4 : FVec F S64x64 .f32) (main_arg5 : FVec F S64 .f32) (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_arg18 : FVec F S64x64 .f32) (main_arg19 : FVec F S64 .f32) (main_arg20 : FVec F S128x10 .f32) (main_arg21 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000x64 .f32 := Host.absf main_arg3
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S1000x64 : Shape := ⟨2, ![1000, 64]⟩
abbrev S64x64 : Shape := ⟨2, ![64, 64]⟩
abbrev S64 : Shape := ⟨1, ![64]⟩
abbrev S128x10 : Shape := ⟨2, ![128, 10]⟩
abbrev S10 : Shape := ⟨1, ![10]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S5000x64 : Shape := ⟨2, ![5000, 64]⟩
abbrev S1x64 : Shape := ⟨2, ![1, 64]⟩
abbrev S100000x1 : Shape := ⟨2, ![100000, 1]⟩
abbrev S64x10 : Shape := ⟨2, ![64, 10]⟩
abbrev S1000x10 : Shape := ⟨2, ![1000, 10]⟩
abbrev S1x10 : Shape := ⟨2, ![1, 10]⟩

abbrev nBuf : Space → Nat
  | .hbm => 63
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S1000x64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S128x10, .f32⟩
  | .hbm, ⟨21, _⟩ => ⟨S10, .f32⟩
  | .hbm, ⟨22, _⟩ => ⟨S1x1200000, .i32⟩
  | .hbm, ⟨23, _⟩ => ⟨S1200000, .i32⟩
  | .hbm, ⟨24, _⟩ => ⟨S1x1200000, .i32⟩
  | .hbm, ⟨25, _⟩ => ⟨S1200000, .i32⟩
  | .hbm, ⟨26, _⟩ => ⟨S_, .i32⟩
  | .hbm, ⟨27, _⟩ => ⟨S1200000, .i32⟩
  | .hbm, ⟨28, _⟩ => ⟨S1200000, .i1⟩
  | .hbm, ⟨29, _⟩ => ⟨S_, .i32⟩
  | .hbm, ⟨30, _⟩ => ⟨S1200000, .i32⟩
  | .hbm, ⟨31, _⟩ => ⟨S1200000, .i32⟩
  | .hbm, ⟨32, _⟩ => ⟨S1200000, .i32⟩
  | .hbm, ⟨33, _⟩ => ⟨S1200000x1, .i32⟩
  | .hbm, ⟨34, _⟩ => ⟨S1200000x64, .f32⟩
  | .hbm, ⟨35, _⟩ => ⟨S_, .f32⟩
  | .hbm, ⟨36, _⟩ => ⟨S100000x64, .f32⟩
  | .hbm, ⟨37, _⟩ => ⟨S1200000x1, .i32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .f32⟩
  | .hbm, ⟨50, _⟩ => ⟨S_, .f32⟩
  | .hbm, ⟨51, _⟩ => ⟨S100000x64, .f32⟩
  | .hbm, ⟨52, _⟩ => ⟨S1200000x1, .i32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S1000x64, .f32⟩
  | .hbm, ⟨58, _⟩ => ⟨S100000x1, .i32⟩
  | .hbm, ⟨59, _⟩ => ⟨S1000x64, .f32⟩
  | .hbm, ⟨60, _⟩ => ⟨S64x10, .f32⟩
  | .hbm, ⟨61, _⟩ => ⟨S64x10, .f32⟩
  | .hbm, ⟨62, _⟩ => ⟨S1000x10, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64, .f32⟩
  | .local _ .vmem, ⟨16, _⟩ => ⟨S64, .f32⟩
  | .local _ .vmem, ⟨17, _⟩ => ⟨S64, .f32⟩
  | .local _ .vmem, ⟨18, _⟩ => ⟨S64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | .local _ .vmem, ⟨22, _⟩ => ⟨S1000x64, .f32⟩
  | .local _ .vmem, ⟨23, _⟩ => ⟨S1000x64, .f32⟩
  | .local _ .vmem, ⟨24, _⟩ => ⟨S64x64, .f32⟩
  | .local _ .vmem, ⟨25, _⟩ => ⟨S64, .f32⟩
  | .local _ .vmem, ⟨26, _⟩ => ⟨S64x10, .f32⟩
  | .local _ .vmem, ⟨27, _⟩ => ⟨S64x10, .f32⟩
  | .local _ .vmem, ⟨28, _⟩ => ⟨S10, .f32⟩
  | .local _ .vmem, ⟨29, _⟩ => ⟨S1000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_1 : Ref sig .tc := ⟨.hbm, 41, rfl⟩
abbrev main_v16 : Ref sig .tc := ⟨.hbm, 42, rfl⟩
abbrev main_v17 : Ref sig .tc := ⟨.hbm, 43, rfl⟩
abbrev main_c_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1000x10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S1000x64 : S_.BroadcastsInDim S1000x64 (![] : Fin 0 → Fin S1000x64.rank)
  bcast_S100000_S100000x1_0 : S100000.BroadcastsInDim S100000x1 (![0] : Fin 1 → Fin S100000x1.rank)
  slices_S128x10_S64x10_0_0 : S128x10.Slices ![0, 0] S64x10
  slices_S128x10_S64x10_64_0 : S128x10.Slices ![64, 0] S64x10
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  broadcasts_S1x64_S1000x64 : S1x64.Broadcasts S1000x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S10_S10_0 : ∀ a, (![0] : Fin 1 → Nat) a + S10.size a ≤ S10.size a
  h_S10 : 0 < S10.numel
  shapeCasts_S10_S1x10 : S10.ShapeCasts S1x10
  broadcasts_S1x10_S1000x10 : S1x10.Broadcasts S1000x10
  inb_S1000x10_S1000x10_0_0 : ∀ a, (![0, 0] : Fin 2 → Nat) a + S1000x10.size a ≤ S1000x10.size a
  h_S1000x10 : 0 < S1000x10.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  scatter_S1000x64_S100000x1_S100000x64_1_0_0_1_wf : ScatterDims.WF S1000x64 S100000x1 S100000x64 [1] [0] [0] 1
  dot_S1000x64_S64x64_S1000x64_1_0_0_1_n_n_wf : DotDims.WF S1000x64 S64x64 S1000x64 [1] [0] [0] [1] [] []
  dot_S1000x64_S64x10_S1000x10_1_0_0_1_n_n_wf : DotDims.WF S1000x64 S64x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S1000x64.size a
  hwx2_0 : ∀ i : grid2.Coords, EltTy.bits .f32 = 32 ∨ (Rect.block (s := S1000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1000x64.size a ≤ S1000x64.size a
  hwx2_1 : ∀ i : grid2.Coords, EltTy.bits .f32 = 32 ∨ (Rect.block (s := S1000x64) S1000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x10.size a ≤ S64x10.size a
  hwx2_4 : ∀ i : grid2.Coords, EltTy.bits .f32 = 32 ∨ (Rect.block (s := S64x10) S64x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x10.size a ≤ S64x10.size a
  hwx2_5 : ∀ i : grid2.Coords, EltTy.bits .f32 = 32 ∨ (Rect.block (s := S64x10) S64x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S10.size a ≤ S10.size a
  hwx2_6 : ∀ i : grid2.Coords, EltTy.bits .f32 = 32 ∨ (Rect.block (s := S10) S10.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1000x10.size a ≤ S1000x10.size a
  hwx2_7 : ∀ i : grid2.Coords, EltTy.bits .f32 = 32 ∨ (Rect.block (s := S1000x10) S1000x10.size (cc2_transform_7 i) (hinb2_7 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

abbrev win0_0 : Pipeline.Window sig grid0 :=
  Pipeline.Window.ofSpec (Memref.whole main_v14) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg16) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg17) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v30) S1000x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg18) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg19) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S64x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S64x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg21) S10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v33) S1000x10.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S1000x64 : Shape := ⟨2, ![1000, 64]⟩
abbrev S64x64 : Shape := ⟨2, ![64, 64]⟩
abbrev S64 : Shape := ⟨1, ![64]⟩
abbrev S128x10 : Shape := ⟨2, ![128, 10]⟩
abbrev S10 : Shape := ⟨1, ![10]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S100000x1 : Shape := ⟨2, ![100000, 1]⟩
abbrev S1000x128 : Shape := ⟨2, ![1000, 128]⟩
abbrev S1000x10 : Shape := ⟨2, ![1000, 10]⟩
abbrev S1x10 : Shape := ⟨2, ![1, 10]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S1000x64, .f32⟩
  | 4 => ⟨S64x64, .f32⟩
  | 5 => ⟨S64, .f32⟩
  | 6 => ⟨S64, .f32⟩
  | 7 => ⟨S64, .f32⟩
  | 8 => ⟨S64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64, .f32⟩
  | 17 => ⟨S64, .f32⟩
  | 18 => ⟨S64x64, .f32⟩
  | 19 => ⟨S64, .f32⟩
  | 20 => ⟨S128x10, .f32⟩
  | 21 => ⟨S10, .f32⟩
  | 22 => ⟨S1x1200000, .i32⟩
  | 23 => ⟨S1200000, .i32⟩
  | 24 => ⟨S1x1200000, .i32⟩
  | 25 => ⟨S1200000, .i32⟩
  | 26 => ⟨S_, .i32⟩
  | 27 => ⟨S1200000, .i32⟩
  | 28 => ⟨S1200000, .i1⟩
  | 29 => ⟨S_, .i32⟩
  | 30 => ⟨S1200000, .i32⟩
  | 31 => ⟨S1200000, .i32⟩
  | 32 => ⟨S1200000, .i32⟩
  | 33 => ⟨S1200000x1, .i32⟩
  | 34 => ⟨S1200000x64, .f32⟩
  | 35 => ⟨S_, .f32⟩
  | 36 => ⟨S100000x64, .f32⟩
  | 37 => ⟨S1200000x1, .i32⟩
  | 38 => ⟨S100000x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S64, .f32⟩
  | 52 => ⟨S64, .f32⟩
  | 53 => ⟨S64, .f32⟩
  | 54 => ⟨S1x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S_, .i32⟩
  | 74 => ⟨S1200000, .i32⟩
  | 75 => ⟨S1200000, .i1⟩
  | 76 => ⟨S_, .i32⟩
  | 77 => ⟨S1200000, .i32⟩
  | 78 => ⟨S1200000, .i32⟩
  | 79 => ⟨S1200000, .i32⟩
  | 80 => ⟨S1200000x1, .i32⟩
  | 81 => ⟨S1200000x64, .f32⟩
  | 82 => ⟨S_, .f32⟩
  | 83 => ⟨S100000x64, .f32⟩
  | 84 => ⟨S1200000x1, .i32⟩
  | 85 => ⟨S100000x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S1x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S64, .f32⟩
  | 99 => ⟨S64, .f32⟩
  | 100 => ⟨S64, .f32⟩
  | 101 => ⟨S1x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S_, .f32⟩
  | 114 => ⟨S1000x64, .f32⟩
  | 115 => ⟨S100000x1, .i32⟩
  | 116 => ⟨S1000x64, .f32⟩
  | 117 => ⟨S1000x64, .f32⟩
  | 118 => ⟨S1x64, .f32⟩
  | 119 => ⟨S1000x64, .f32⟩
  | 120 => ⟨S1000x64, .f32⟩
  | 121 => ⟨S_, .f32⟩
  | 122 => ⟨S1000x64, .f32⟩
  | 123 => ⟨S1000x64, .f32⟩
  | 124 => ⟨S1000x128, .f32⟩
  | 125 => ⟨S1000x10, .f32⟩
  | 126 => ⟨S1x10, .f32⟩
  | 127 => ⟨S1000x10, .f32⟩
  | _ => ⟨S100000x64, .f32⟩

abbrev hbmTy0_1 (i : Nat) : BufTy := match i % 128 with
  | 0 => ⟨S1000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_1 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call0_cst : Ref sig .tc := ⟨.hbm, 60, rfl⟩
abbrev main_call0_v0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call1_cst : Ref sig .tc := ⟨.hbm, 67, rfl⟩
abbrev main_call1_v0 : Ref sig .tc := ⟨.hbm, 68, rfl⟩
abbrev main_v39 : Ref sig .tc := ⟨.hbm, 69, rfl⟩
abbrev main_call2_cst : Ref sig .tc := ⟨.hbm, 70, rfl⟩
abbrev main_call2_v0 : Ref sig .tc := ⟨.hbm, 71, rfl⟩
abbrev main_v40 : Ref sig .tc := ⟨.hbm, 72, rfl⟩
abbrev main_c_2 : Ref sig .tc := ⟨.hbm, 73, rfl⟩
abbrev main_v41 : Ref sig .tc := ⟨.hbm, 74, rfl⟩
abbrev main_v42 : Ref sig .tc := ⟨.hbm, 75, rfl⟩
abbrev main_c_3 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_4 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_5 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call3_cst : Ref sig .tc := ⟨.hbm, 107, rfl⟩
abbrev main_call3_v0 : Ref sig .tc := ⟨.hbm, 108, rfl⟩
abbrev main_v71 : Ref sig .tc := ⟨.hbm, 109, rfl⟩
abbrev main_call4_cst : Ref sig .tc := ⟨.hbm, 110, rfl⟩
abbrev main_call4_v0 : Ref sig .tc := ⟨.hbm, 111, rfl⟩
abbrev main_v72 : Ref sig .tc := ⟨.hbm, 112, rfl⟩
abbrev main_cst_6 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_call5_cst : Ref sig .tc := ⟨.hbm, 121, rfl⟩
abbrev main_call5_v0 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S1x64_S1000x64_0_1 : S1x64.BroadcastsInDim S1000x64 (![0, 1] : Fin 2 → Fin S1000x64.rank)
  concatenates_S1000x64_S1000x64_S1000x128_d1 : Shape.Concatenates [S1000x64, S1000x64] S1000x128 1
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S1000x64_S100000x1_S100000x64_1_0_0_1_wf : ScatterDims.WF S1000x64 S100000x1 S100000x64 [1] [0] [0] 1
  dot_S1000x64_S64x64_S1000x64_1_0_0_1_n_n_wf : DotDims.WF S1000x64 S64x64 S1000x64 [1] [0] [0] [1] [] []
  dot_S1000x128_S128x10_S1000x10_1_0_0_1_n_n_wf : DotDims.WF S1000x128 S128x10 S1000x10 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x128_S128x10_S1000x10_1_0_0_1_n_n : DotDims S1000x128 S128x10 S1000x10 where
  lhsContracting := [1]
  rhsContracting := [0]
  lhsNonContracting := [0]
  rhsNonContracting := [1]
  lhsBatch := []
  rhsBatch := []
  wf := dot_S1000x128_S128x10_S1000x10_1_0_0_1_n_n_wf

class Facts : Prop extends Facts₀ where

variable [Facts]
-- ==== Proof.KernelRun.lean ====
/-
  The idealized kernel's run, with the result array named.

  @main is six segments: three stretches of host operations and three kernel launches.  Run in order from the launch
  memory, each segment takes the buffers from one boundary's contents to the next, and after the last one every
  buffer that outlives the launches holds the last boundary's contents `W6`.  The argument arrays are among those
  buffers and no segment writes them; the result array is among them too, so it ends at `W6 … main_v33`.
-/
import proofs.«108532_j51857435132129_1_alg».proof.Proof.Gen.KernelIdeal.Frame

noncomputable section

set_option maxRecDepth 16384

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault, with the result array at
    the last boundary's contents and the argument arrays as launched. -/
theorem run : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v33 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c)⟩)

end Cert.KernelIdeal.ValueRun

end
-- ==== Proof.KernelOps.lean ====
/-
  The two operations of the kernels' bodies that are not entry-by-entry, read as whole arrays of extended reals.

  A length-`b` vector reshaped to `[1, b]` and repeated along `a` rows holds, at `(p, q)`, the vector's entry `q`.
  A block times a weight on the matrix unit, accumulated from zero, is at `(p, q)` the sum over `k` of the block's
  `(p, k)` times the weight's `(k, q)`: rounding the operands to the shorter float format first changes nothing on the
  extended reals, where a change of format is the identity, and adding the zero accumulator changes nothing either.
-/
import proofs.«108532_j51857435132129_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Idealize.ShloMosaic Idealize.ShloMosaic.ValueIdx

/-- A vector of length `b`, as one row, repeated along `a` rows: entry `(p, q)` is the vector's entry `q`. -/
theorem row_rep {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  obtain ⟨p, q, rfl⟩ : ∃ (p : Fin a) (q : Fin b), i = ix2 p q := ⟨i 0, i 1, eq_ix2 i⟩
  rw [broadcastTo_1b_ab_apply, shapeCast_a_1a_apply]
  rfl

/-- The matrix product `dot_S5000x64_S64x64_S5000x64_1_0_0_1_n_n` of a `[5000, 64]` block with a `[64, 64]` weight into the zero accumulator, the operands
    passed through the (identity) change of float format: at `(p, q)` it is row `p` against column `q`. -/
theorem mm_block (a : FVec Ideal S5000x64 .f32) (b : FVec Ideal S64x64 .f32) (ha : FTy.bf16.bits < FTy.f32.bits) (hb : FTy.bf16.bits < FTy.f32.bits) :
    matmul (F := Ideal) dot_S5000x64_S64x64_S5000x64_1_0_0_1_n_n none (truncf .bf16 a ha) (truncf .bf16 b hb) (constant S5000x64 .f32 0x00000000#32)
      = fun i => ∑ k : Fin 64, a (ix2 (i 0) k) * b (ix2 k (i 1)) := by
  funext i
  show FloatOps.matmul dot_S5000x64_S64x64_S5000x64_1_0_0_1_n_n none (truncf .bf16 a ha) (truncf .bf16 b hb) (constant S5000x64 .f32 0x00000000#32) i = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have l0 : ∀ q : dot_S5000x64_S64x64_S5000x64_1_0_0_1_n_n.contr.Idx, (dot_S5000x64_S64x64_S5000x64_1_0_0_1_n_n.lhsIdx i q 0).val = (i 0).val := fun q => by
    unfold DotDims.lhsIdx
    rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
    rfl
  have l1 : ∀ q : dot_S5000x64_S64x64_S5000x64_1_0_0_1_n_n.contr.Idx, (dot_S5000x64_S64x64_S5000x64_1_0_0_1_n_n.lhsIdx i q 1).val = (q ⟨0, by decide⟩).val := fun q =>
    dot_S5000x64_S64x64_S5000x64_1_0_0_1_n_n.lhsIdx_val_of_single rfl i q
  have r0 : ∀ q : dot_S5000x64_S64x64_S5000x64_1_0_0_1_n_n.contr.Idx, (dot_S5000x64_S64x64_S5000x64_1_0_0_1_n_n.rhsIdx i q 0).val = (q ⟨0, by decide⟩).val := fun q =>
    dot_S5000x64_S64x64_S5000x64_1_0_0_1_n_n.rhsIdx_val_of_single rfl i q
  have r1 : ∀ q : dot_S5000x64_S64x64_S5000x64_1_0_0_1_n_n.contr.Idx, (dot_S5000x64_S64x64_S5000x64_1_0_0_1_n_n.rhsIdx i q 1).val = (i 1).val := fun q => by
    unfold DotDims.rhsIdx
    rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
    rfl
  have el : dot_S5000x64_S64x64_S5000x64_1_0_0_1_n_n.lhsIdx i ((contrEquiv1 dot_S5000x64_S64x64_S5000x64_1_0_0_1_n_n 64 rfl rfl).symm k) = ix2 (i 0) k := funext fun a => Fin.ext (by
    match a with
    | ⟨0, _⟩ => exact l0 _
    | ⟨1, _⟩ => exact (l1 _).trans hk)
  have er : dot_S5000x64_S64x64_S5000x64_1_0_0_1_n_n.rhsIdx i ((contrEquiv1 dot_S5000x64_S64x64_S5000x64_1_0_0_1_n_n 64 rfl rfl).symm k) = ix2 k (i 1) := funext fun a => Fin.ext (by
    match a with
    | ⟨0, _⟩ => exact (r0 _).trans hk
    | ⟨1, _⟩ => exact r1 _)
  rw [el, er]
  rfl

/-- The matrix product `dot_S1000x64_S64x64_S1000x64_1_0_0_1_n_n` of a `[1000, 64]` block with a `[64, 64]` weight into the zero accumulator, the operands
    passed through the (identity) change of float format: at `(p, q)` it is row `p` against column `q`. -/
theorem mm_topo (a : FVec Ideal S1000x64 .f32) (b : FVec Ideal S64x64 .f32) (ha : FTy.bf16.bits < FTy.f32.bits) (hb : FTy.bf16.bits < FTy.f32.bits) :
    matmul (F := Ideal) dot_S1000x64_S64x64_S1000x64_1_0_0_1_n_n none (truncf .bf16 a ha) (truncf .bf16 b hb) (constant S1000x64 .f32 0x00000000#32)
      = fun i => ∑ k : Fin 64, a (ix2 (i 0) k) * b (ix2 k (i 1)) := by
  funext i
  show FloatOps.matmul dot_S1000x64_S64x64_S1000x64_1_0_0_1_n_n none (truncf .bf16 a ha) (truncf .bf16 b hb) (constant S1000x64 .f32 0x00000000#32) i = _
  rw [Ideal.matmul_constant_zero_apply, ← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  have l0 : ∀ q : dot_S1000x64_S64x64_S1000x64_1_0_0_1_n_n.contr.Idx, (dot_S1000x64_S64x64_S1000x64_1_0_0_1_n_n.lhsIdx i q 0).val = (i 0).val := fun q => by
    unfold DotDims.lhsIdx
    rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
    rfl
  have l1 : ∀ q : dot_S1000x64_S64x64_S1000x64_1_0_0_1_n_n.contr.Idx, (dot_S1000x64_S64x64_S1000x64_1_0_0_1_n_n.lhsIdx i q 1).val = (q ⟨0, by decide⟩).val := fun q =>
    dot_S1000x64_S64x64_S1000x64_1_0_0_1_n_n.lhsIdx_val_of_single rfl i q
  have r0 : ∀ q : dot_S1000x64_S64x64_S1000x64_1_0_0_1_n_n.contr.Idx, (dot_S1000x64_S64x64_S1000x64_1_0_0_1_n_n.rhsIdx i q 0).val = (q ⟨0, by decide⟩).val := fun q =>
    dot_S1000x64_S64x64_S1000x64_1_0_0_1_n_n.rhsIdx_val_of_single rfl i q
  have r1 : ∀ q : dot_S1000x64_S64x64_S1000x64_1_0_0_1_n_n.contr.Idx, (dot_S1000x64_S64x64_S1000x64_1_0_0_1_n_n.rhsIdx i q 1).val = (i 1).val := fun q => by
    unfold DotDims.rhsIdx
    rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
    rfl
  have el : dot_S1000x64_S64x64_S1000x64_1_0_0_1_n_n.lhsIdx i ((contrEquiv1 dot_S1000x64_S64x64_S1000x64_1_0_0_1_n_n 64 rfl rfl).symm k) = ix2 (i 0) k := funext fun a => Fin.ext (by
    match a with
    | ⟨0, _⟩ => exact l0 _
    | ⟨1, _⟩ => exact (l1 _).trans hk)
  have er : dot_S1000x64_S64x64_S1000x64_1_0_0_1_n_n.rhsIdx i ((contrEquiv1 dot_S1000x64_S64x64_S1000x64_1_0_0_1_n_n 64 rfl rfl).symm k) = ix2 k (i 1) := funext fun a => Fin.ext (by
    match a with
    | ⟨0, _⟩ => exact (r0 _).trans hk
    | ⟨1, _⟩ => exact r1 _)
  rw [el, er]
  rfl

/-- The matrix product `dot_S1000x64_S64x10_S1000x10_1_0_0_1_n_n` of a `[1000, 64]` block with a `[64, 10]` weight into the zero accumulator, the operands
    passed through the (identity) change of float format: at `(p, q)` it is row `p` against column `q`. -/
theorem mm_cls (a : FVec Ideal S1000x64 .f32) (b : FVec Ideal S64x10 .f32) (ha : FTy.bf16.bits < FTy.f32.bits) (hb : FTy.bf16.bits < FTy.f32.bits) :
    matmul (F := Ideal) dot_S1000x64_S64x10_S1000x10_1_0_0_1_n_n none (truncf .bf16 a ha) (truncf .bf16 b hb) (constant S1000x10 .f32 0x00000000#32)
      = fun i => ∑ k : Fin 64, a (ix2 (i 0) k) * b (ix2 k (i 1)) := by
  funext i
  show FloatOps.matmul dot_S1000x64_S64x10_S1000x10_1_0_0_1_n_n none (truncf .bf16 a ha) (truncf .bf16 b hb) (constant S1000x10 .f32 0x00000000#32) i = _
  rw [Ideal.matmul_constant_zero_apply, ← Equiv.sum_comp (contrEquiv1 dot_S1000x64_S64x10_S1000x10_1_0_0_1_n_n 64 rfl rfl).symm]
  refine Finset.sum_congr rfl fun k _ => ?_
  have hk := contrEquiv1_symm_val dot_S1000x64_S64x10_S1000x10_1_0_0_1_n_n 64 rfl rfl k
  have l0 : ∀ q : dot_S1000x64_S64x10_S1000x10_1_0_0_1_n_n.contr.Idx, (dot_S1000x64_S64x10_S1000x10_1_0_0_1_n_n.lhsIdx i q 0).val = (i 0).val := fun q => by
    unfold DotDims.lhsIdx
    rw [dif_neg (show ¬(0 : Fin S1000x64.rank) ∈ dot_S1000x64_S64x10_S1000x10_1_0_0_1_n_n.lhsBatch by decide), dif_pos (show (0 : Fin S1000x64.rank) ∈ dot_S1000x64_S64x10_S1000x10_1_0_0_1_n_n.lhsNonContracting by decide)]
    rfl
  have l1 : ∀ q : dot_S1000x64_S64x10_S1000x10_1_0_0_1_n_n.contr.Idx, (dot_S1000x64_S64x10_S1000x10_1_0_0_1_n_n.lhsIdx i q 1).val = (q ⟨0, by decide⟩).val := fun q =>
    dot_S1000x64_S64x10_S1000x10_1_0_0_1_n_n.lhsIdx_val_of_single rfl i q
  have r0 : ∀ q : dot_S1000x64_S64x10_S1000x10_1_0_0_1_n_n.contr.Idx, (dot_S1000x64_S64x10_S1000x10_1_0_0_1_n_n.rhsIdx i q 0).val = (q ⟨0, by decide⟩).val := fun q =>
    dot_S1000x64_S64x10_S1000x10_1_0_0_1_n_n.rhsIdx_val_of_single rfl i q
  have r1 : ∀ q : dot_S1000x64_S64x10_S1000x10_1_0_0_1_n_n.contr.Idx, (dot_S1000x64_S64x10_S1000x10_1_0_0_1_n_n.rhsIdx i q 1).val = (i 1).val := fun q => by
    unfold DotDims.rhsIdx
    rw [dif_neg (show ¬(1 : Fin S64x10.rank) ∈ dot_S1000x64_S64x10_S1000x10_1_0_0_1_n_n.rhsBatch by decide), dif_pos (show (1 : Fin S64x10.rank) ∈ dot_S1000x64_S64x10_S1000x10_1_0_0_1_n_n.rhsNonContracting by decide)]
    rfl
  have el : dot_S1000x64_S64x10_S1000x10_1_0_0_1_n_n.lhsIdx i ((contrEquiv1 dot_S1000x64_S64x10_S1000x10_1_0_0_1_n_n 64 rfl rfl).symm k) = ix2 (i 0) k := funext fun a => Fin.ext (by
    match a with
    | ⟨0, _⟩ => exact l0 _
    | ⟨1, _⟩ => exact (l1 _).trans hk)
  have er : dot_S1000x64_S64x10_S1000x10_1_0_0_1_n_n.rhsIdx i ((contrEquiv1 dot_S1000x64_S64x10_S1000x10_1_0_0_1_n_n 64 rfl rfl).symm k) = ix2 k (i 1) := funext fun a => Fin.ext (by
    match a with
    | ⟨0, _⟩ => exact (r0 _).trans hk
    | ⟨1, _⟩ => exact r1 _)
  rw [el, er]
  rfl

end Cert.KernelIdeal.Body

end
-- ==== Proof.Spec.lean ====
/-
  The network, written once as mathematics on the extended reals, index by index.

  A node-feature array `h : [n, 64]`, a weight `W : [64, m]` and a bias `b : [m]` give the affine layer
  `lin h W b (p, q) = (∑ k, h (p, k) · W (k, q)) + b q`.  Batch normalisation in inference mode with scale `g`, shift
  `β`, running mean `μ` and running variance `v` is `bn z (p, q) = (g q · (z (p, q) − μ q)) · rsqrt (v q + ε) + β q`, the
  operations grouped exactly in that order, `ε` the single-precision word nearest to 1e-5 (kept as a word: it is the
  same word wherever it occurs and is never evaluated).  `relu z = max z 0`.

  The three dense stages of the graph network are compositions of these:
    * `mlp1`  : relu (lin (relu (bn (lin h W1a b1a))) W1b b1b)        — the first convolution's two-layer perceptron;
    * `mlp2`  : relu (bn (lin h W2 b2))                                 — the second convolution's one layer;
    * `head`  : (xs · Wc₁ + relu (lin topo Wt bt) · Wc₂) + bc           — the classifier over the pooled structure
                 features `xs` and the embedded topological features, with the classifier's weight given as its two
                 row halves.
  Two laws of `max` and of finite sums on the extended reals are all the algebra the equivalence needs:
  `relu` is idempotent, and a sum over 128 terms is the sum over its first 64 plus the sum over its last 64 (addition on
  the extended reals is commutative and associative, so no finiteness is asked).
-/
import Idealize.ShloMosaic.PureOps.Ideal
import Idealize.ShloMosaic.PureOps.Ideal.Laws
import Idealize.ShloMosaic.Lib.ValueIdx

noncomputable section

namespace Cert.Net

open Idealize.ShloMosaic Idealize.ShloMosaic.ValueIdx

/-- A two-axis array of extended reals with `n` rows and `m` columns. -/
abbrev Mat (n m : Nat) : Type := (⟨2, ![n, m]⟩ : Shape).Idx → EReal
/-- A one-axis array of extended reals of length `m`. -/
abbrev Row (m : Nat) : Type := (⟨1, ![m]⟩ : Shape).Idx → EReal

/-- The zero word of single precision, as an extended real (never evaluated: both programs spell the same word). -/
abbrev zero : EReal := Ideal.ofBits .f32 0x00000000#32
/-- The batch-norm epsilon: the single-precision word both programs add to the running variance. -/
abbrev eps : EReal := Ideal.ofBits .f32 0x3727C5AC#32

/-- The affine layer at row `p`, column `q`: the row of `h` against the column of `W`, plus the bias. -/
def linAt {n m : Nat} (h : Mat n 64) (W : Mat 64 m) (b : Row m) (p : Fin n) (q : Fin m) : EReal :=
  (∑ k : Fin 64, h (ix2 p k) * W (ix2 k q)) + b (ix1 q)

/-- Inference-mode batch normalisation of the value `z` in column `q`. -/
def bnAt {m : Nat} (g β μ v : Row m) (z : EReal) (q : Fin m) : EReal :=
  (g (ix1 q) * (z - μ (ix1 q))) * Ideal.rsqrt (v (ix1 q) + eps) + β (ix1 q)

/-- The rectifier. -/
def relu (z : EReal) : EReal := max z zero

theorem relu_relu (z : EReal) : relu (relu z) = relu z := by
  unfold relu; exact max_eq_left (le_max_right _ _)

/-- The hidden activation of the first perceptron at `(p, q)`. -/
def hid1At {n : Nat} (h : Mat n 64) (W1a : Mat 64 64) (b1a g1 β1 μ1 v1 : Row 64) (p : Fin n) (q : Fin 64) : EReal :=
  relu (bnAt g1 β1 μ1 v1 (linAt h W1a b1a p q) q)

/-- The hidden activation as a whole array. -/
def hid1 {n : Nat} (h : Mat n 64) (W1a : Mat 64 64) (b1a g1 β1 μ1 v1 : Row 64) : Mat n 64 :=
  fun i => hid1At h W1a b1a g1 β1 μ1 v1 (i 0) (i 1)

/-- The first convolution's perceptron at `(p, q)`. -/
def mlp1At {n : Nat} (h : Mat n 64) (W1a : Mat 64 64) (b1a g1 β1 μ1 v1 : Row 64) (W1b : Mat 64 64) (b1b : Row 64)
    (p : Fin n) (q : Fin 64) : EReal :=
  relu (linAt (hid1 h W1a b1a g1 β1 μ1 v1) W1b b1b p q)

/-- The second convolution's layer at `(p, q)`. -/
def mlp2At {n : Nat} (h : Mat n 64) (W2 : Mat 64 64) (b2 g2 β2 μ2 v2 : Row 64) (p : Fin n) (q : Fin 64) : EReal :=
  relu (bnAt g2 β2 μ2 v2 (linAt h W2 b2 p q) q)

/-- The embedded topological features at `(p, q)`. -/
def topoAt {n : Nat} (topo : Mat n 64) (Wt : Mat 64 64) (bt : Row 64) (p : Fin n) (q : Fin 64) : EReal :=
  relu (linAt topo Wt bt p q)

/-- The classifier at `(p, q)`, its weight given as the two row halves `Wc₁` (against the structure features) and
    `Wc₂` (against the topological ones). -/
def headAt {n m : Nat} (xs topo : Mat n 64) (Wt : Mat 64 64) (bt : Row 64) (Wc₁ Wc₂ : Mat 64 m) (bc : Row m)
    (p : Fin n) (q : Fin m) : EReal :=
  ((∑ k : Fin 64, xs (ix2 p k) * Wc₁ (ix2 k q)) + (∑ k : Fin 64, topoAt topo Wt bt p k * Wc₂ (ix2 k q))) + bc (ix1 q)

/-- The three stages as whole arrays. -/
def mlp1 {n : Nat} (h : Mat n 64) (W1a : Mat 64 64) (b1a g1 β1 μ1 v1 : Row 64) (W1b : Mat 64 64) (b1b : Row 64) : Mat n 64 :=
  fun i => mlp1At h W1a b1a g1 β1 μ1 v1 W1b b1b (i 0) (i 1)
def mlp2 {n : Nat} (h : Mat n 64) (W2 : Mat 64 64) (b2 g2 β2 μ2 v2 : Row 64) : Mat n 64 :=
  fun i => mlp2At h W2 b2 g2 β2 μ2 v2 (i 0) (i 1)
def head {n m : Nat} (xs topo : Mat n 64) (Wt : Mat 64 64) (bt : Row 64) (Wc₁ Wc₂ : Mat 64 m) (bc : Row m) : Mat n m :=
  fun i => headAt xs topo Wt bt Wc₁ Wc₂ bc (i 0) (i 1)

/-- A sum over 128 terms is the sum over the first 64 plus the sum over the last 64. -/
theorem sum_split_128 (f : Fin 128 → EReal) :
    (∑ k : Fin 128, f k) = (∑ k : Fin 64, f ⟨k.val, by omega⟩) + (∑ k : Fin 64, f ⟨64 + k.val, by omega⟩) := by
  have h := Fin.sum_univ_add (a := 64) (b := 64) (fun k : Fin (64 + 64) => f ⟨k.val, by have := k.isLt; omega⟩)
  refine h.trans ?_
  rfl

end Cert.Net

end
-- ==== Proof.Pay0.lean ====
/-
  What the first kernel's body computes from the blocks it loads, as mathematics: with the loaded row block `h`
  (5000 rows of aggregated node features) and the whole parameter arrays, the one value it stores is the first
  convolution's perceptron `Net.mlp1` of that block — two matrix products, a batch normalisation between two
  rectifiers — every vector parameter entering as a row repeated along the block.
-/
import proofs.«108532_j51857435132129_1_alg».proof.Proof.Gen.KernelIdeal.Skeleton
import proofs.«108532_j51857435132129_1_alg».proof.Proof.KernelOps
import proofs.«108532_j51857435132129_1_alg».proof.Proof.Spec

noncomputable section

namespace Cert.KernelIdeal.Body

open Cert.KernelIdeal Cert.KernelIdeal.Gen Idealize.ShloMosaic Idealize.ShloMosaic.ValueIdx Cert.Net

/-- The first kernel's stored value is `Net.mlp1` of the loaded block and parameters. -/
theorem pay0_eq (v0 : Vec Ideal S5000x64 .f32) (v2 : Vec Ideal S64x64 .f32) (v6 v10 v11 v12 v13 : Vec Ideal S64 .f32)
    (v31 : Vec Ideal S64x64 .f32) (v35 : Vec Ideal S64 .f32) :
    k0_pay1 (F := Ideal) v0 v2 v6 v10 v11 v12 v13 v31 v35 = mlp1 v0 v2 v6 v10 v11 v12 v13 v31 v35 := by
  unfold k0_pay1
  dsimp only
  simp only [shapeCast_self, row_rep, mm_block]
  rfl

end Cert.KernelIdeal.Body

end
-- ==== Proof.SpecRows.lean ====
/-
  The dense stages act row by row: row `p` of the result depends on row `p` of the feature array only.  So feeding a
  stage a selection of rows `ρ` of an array (a block of consecutive rows, say) gives the same selection of the rows of
  the stage applied to the whole array.  Both sides unfold to the same expression.
-/
import proofs.«108532_j51857435132129_1_alg».proof.Proof.Spec

noncomputable section

namespace Cert.Net

open Idealize.ShloMosaic Idealize.ShloMosaic.ValueIdx

/-- The rows `ρ` of an array, as an array. -/
abbrev rows {n n' : Nat} (ρ : Fin n' → Fin n) (h : Mat n 64) : Mat n' 64 := fun y => h (ix2 (ρ (y 0)) (y 1))

theorem mlp1_rows {n n' : Nat} (ρ : Fin n' → Fin n) (h : Mat n 64) (W1a : Mat 64 64) (b1a g1 β1 μ1 v1 : Row 64)
    (W1b : Mat 64 64) (b1b : Row 64) (p : Fin n') (q : Fin 64) :
    mlp1 (rows ρ h) W1a b1a g1 β1 μ1 v1 W1b b1b (ix2 p q) = mlp1 h W1a b1a g1 β1 μ1 v1 W1b b1b (ix2 (ρ p) q) := rfl

theorem mlp2_rows {n n' : Nat} (ρ : Fin n' → Fin n) (h : Mat n 64) (W2 : Mat 64 64) (b2 g2 β2 μ2 v2 : Row 64)
    (p : Fin n') (q : Fin 64) :
    mlp2 (rows ρ h) W2 b2 g2 β2 μ2 v2 (ix2 p q) = mlp2 h W2 b2 g2 β2 μ2 v2 (ix2 (ρ p) q) := rfl

end Cert.Net

end
-- ==== Proof.Region0.lean ====
/-
  The first kernel launch, read as a whole-array value.

  The launch runs over 20 points; at point `t` it loads rows 5000·t … 5000·t + 4999 of the aggregated features, the
  whole of every parameter array, and writes back the same rows of its output.  What it writes is the first
  convolution's perceptron of the loaded rows (the body's value), and that perceptron acts row by row, so point `t`
  writes rows 5000·t … of the perceptron of the WHOLE feature array.  The twenty row blocks tile the 100000 rows, so
  after the launch the output array is the perceptron of the feature array, whatever the arrays held on entry (`V`).
-/
import proofs.«108532_j51857435132129_1_alg».proof.Proof.Gen.KernelIdeal.Frame
import proofs.«108532_j51857435132129_1_alg».proof.Proof.Pay0
import proofs.«108532_j51857435132129_1_alg».proof.Proof.SpecRows
import Idealize.ShloMosaic.Lib.Pipeline.Value

noncomputable section

set_option maxRecDepth 16384

namespace Cert.KernelIdeal.Region0

open Cert.KernelIdeal Cert.KernelIdeal.Gen Cert.KernelIdeal.Body Idealize.ShloMosaic Idealize.ShloMosaic.TcCoe Idealize.ShloMosaic.ValueIdx Idealize.SL.Sem Cert.Net
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided once over the 20 grid points: the feature window and the output window sit at
    block row `t`, column block 0; every parameter window is its whole array. -/
theorem idx_facts : ∀ t : Fin cfg0.N,
    win0_0.index t (0 : Fin 2) = win0_9.index t (0 : Fin 2) ∧ win0_0.index t (1 : Fin 2) = 0
    ∧ win0_9.index t (1 : Fin 2) = 0 ∧ win0_9.index t (0 : Fin 2) ≤ 19 ∧ win0_9.index t (0 : Fin 2) = t.val
    ∧ win0_1.index t (0 : Fin 2) = 0 ∧ win0_1.index t (1 : Fin 2) = 0
    ∧ win0_2.index t (0 : Fin 1) = 0
    ∧ win0_3.index t (0 : Fin 1) = 0
    ∧ win0_4.index t (0 : Fin 1) = 0
    ∧ win0_5.index t (0 : Fin 1) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Every block row is some point's. -/
theorem idx_onto : ∀ q0 : Fin 20, ∃ t : Fin cfg0.N, win0_9.index t (0 : Fin 2) = q0.val :=
  (by decide +kernel : ∀ q0 : Fin 20, ∃ t : Fin grid0.N, win0_9.index t (0 : Fin 2) = q0.val)

/-- Row `p` of point `t`'s block is row `5000·(block row of t) + p` of the array. -/
def row (t : Fin cfg0.N) (p : Fin 5000) : Fin 100000 :=
  ⟨win0_9.index t (0 : Fin 2) * 5000 + p.val, by
    obtain ⟨e0, e1, e2, e3, e4, f1a, f1b, f2a, f3a, f4a, f5a, f6a, f7a, f7b, f8a⟩ := idx_facts t
    have := p.isLt; omega⟩

/-- The feature window's block at point `t`: the 5000 rows `row t` of the feature array. -/
theorem blk_0 (c : Dev nD) (t : Fin cfg0.N) :
    (iblk0 V c 0 t : S5000x64.Idx → EReal) = rows (row t) (V c main_v14 : S100000x64.Idx → EReal) := by
  funext y
  show (V c main_v14 : S100000x64.Idx → EReal) (((cfg0.win 0).blk t).view.emb y) = (V c main_v14 : S100000x64.Idx → EReal) (ix2 (row t (y 0)) (y 1))
  obtain ⟨e0, e1, e2, e3, e4, f1a, f1b, f2a, f3a, f4a, f5a, f6a, f7a, f7b, f8a⟩ := idx_facts t
  refine congrArg _ (funext fun a => Fin.ext ?_)
  match a with
  | ⟨0, _⟩ => show win0_0.index t (0 : Fin 2) * 5000 + 1 * (y 0).val = win0_9.index t (0 : Fin 2) * 5000 + (y 0).val; omega
  | ⟨1, _⟩ => show win0_0.index t (1 : Fin 2) * 64 + 1 * (y 1).val = (y 1).val; omega

/-- Window 1 is the whole parameter array at every point. -/
theorem blk_1 (c : Dev nD) (t : Fin cfg0.N) : (iblk0 V c 1 t : S64x64.Idx → EReal) = (V c main_arg4 : S64x64.Idx → EReal) := by
  funext y
  show (V c main_arg4 : S64x64.Idx → EReal) (((cfg0.win 1).blk t).view.emb y) = (V c main_arg4 : S64x64.Idx → EReal) y
  obtain ⟨e0, e1, e2, e3, e4, f1a, f1b, f2a, f3a, f4a, f5a, f6a, f7a, f7b, f8a⟩ := idx_facts t
  refine congrArg _ (funext fun a => Fin.ext ?_)
  match a with
    | ⟨0, _⟩ => show win0_1.index t (0 : Fin 2) * 64 + 1 * (y 0).val = (y 0).val; omega
    | ⟨1, _⟩ => show win0_1.index t (1 : Fin 2) * 64 + 1 * (y 1).val = (y 1).val; omega

/-- Window 2 is the whole parameter array at every point. -/
theorem blk_2 (c : Dev nD) (t : Fin cfg0.N) : (iblk0 V c 2 t : S64.Idx → EReal) = (V c main_arg5 : S64.Idx → EReal) := by
  funext y
  show (V c main_arg5 : S64.Idx → EReal) (((cfg0.win 2).blk t).view.emb y) = (V c main_arg5 : S64.Idx → EReal) y
  obtain ⟨e0, e1, e2, e3, e4, f1a, f1b, f2a, f3a, f4a, f5a, f6a, f7a, f7b, f8a⟩ := idx_facts t
  refine congrArg _ (funext fun a => Fin.ext ?_)
  match a with
    | ⟨0, _⟩ => show win0_2.index t (0 : Fin 1) * 64 + 1 * (y 0).val = (y 0).val; omega

/-- Window 3 is the whole parameter array at every point. -/
theorem blk_3 (c : Dev nD) (t : Fin cfg0.N) : (iblk0 V c 3 t : S64.Idx → EReal) = (V c main_arg6 : S64.Idx → EReal) := by
  funext y
  show (V c main_arg6 : S64.Idx → EReal) (((cfg0.win 3).blk t).view.emb y) = (V c main_arg6 : S64.Idx → EReal) y
  obtain ⟨e0, e1, e2, e3, e4, f1a, f1b, f2a, f3a, f4a, f5a, f6a, f7a, f7b, f8a⟩ := idx_facts t
  refine congrArg _ (funext fun a => Fin.ext ?_)
  match a with
    | ⟨0, _⟩ => show win0_3.index t (0 : Fin 1) * 64 + 1 * (y 0).val = (y 0).val; omega

/-- Window 4 is the whole parameter array at every point. -/
theorem blk_4 (c : Dev nD) (t : Fin cfg0.N) : (iblk0 V c 4 t : S64.Idx → EReal) = (V c main_arg7 : S64.Idx → EReal) := by
  funext y
  show (V c main_arg7 : S64.Idx → EReal) (((cfg0.win 4).blk t).view.emb y) = (V c main_arg7 : S64.Idx → EReal) y
  obtain ⟨e0, e1, e2, e3, e4, f1a, f1b, f2a, f3a, f4a, f5a, f6a, f7a, f7b, f8a⟩ := idx_facts t
  refine congrArg _ (funext fun a => Fin.ext ?_)
  match a with
    | ⟨0, _⟩ => show win0_4.index t (0 : Fin 1) * 64 + 1 * (y 0).val = (y 0).val; omega

/-- Window 5 is the whole parameter array at every point. -/
theorem blk_5 (c : Dev nD) (t : Fin cfg0.N) : (iblk0 V c 5 t : S64.Idx → EReal) = (V c main_arg8 : S64.Idx → EReal) := by
  funext y
  show (V c main_arg8 : S64.Idx → EReal) (((cfg0.win 5).blk t).view.emb y) = (V c main_arg8 : S64.Idx → EReal) y
  obtain ⟨e0, e1, e2, e3, e4, f1a, f1b, f2a, f3a, f4a, f5a, f6a, f7a, f7b, f8a⟩ := idx_facts t
  refine congrArg _ (funext fun a => Fin.ext ?_)
  match a with
    | ⟨0, _⟩ => show win0_5.index t (0 : Fin 1) * 64 + 1 * (y 0).val = (y 0).val; omega

/-- Window 6 is the whole parameter array at every point. -/
theorem blk_6 (c : Dev nD) (t : Fin cfg0.N) : (iblk0 V c 6 t : S64.Idx → EReal) = (V c main_arg9 : S64.Idx → EReal) := by
  funext y
  show (V c main_arg9 : S64.Idx → EReal) (((cfg0.win 6).blk t).view.emb y) = (V c main_arg9 : S64.Idx → EReal) y
  obtain ⟨e0, e1, e2, e3, e4, f1a, f1b, f2a, f3a, f4a, f5a, f6a, f7a, f7b, f8a⟩ := idx_facts t
  refine congrArg _ (funext fun a => Fin.ext ?_)
  match a with
    | ⟨0, _⟩ => show win0_6.index t (0 : Fin 1) * 64 + 1 * (y 0).val = (y 0).val; omega

/-- Window 7 is the whole parameter array at every point. -/
theorem blk_7 (c : Dev nD) (t : Fin cfg0.N) : (iblk0 V c 7 t : S64x64.Idx → EReal) = (V c main_arg10 : S64x64.Idx → EReal) := by
  funext y
  show (V c main_arg10 : S64x64.Idx → EReal) (((cfg0.win 7).blk t).view.emb y) = (V c main_arg10 : S64x64.Idx → EReal) y
  obtain ⟨e0, e1, e2, e3, e4, f1a, f1b, f2a, f3a, f4a, f5a, f6a, f7a, f7b, f8a⟩ := idx_facts t
  refine congrArg _ (funext fun a => Fin.ext ?_)
  match a with
    | ⟨0, _⟩ => show win0_7.index t (0 : Fin 2) * 64 + 1 * (y 0).val = (y 0).val; omega
    | ⟨1, _⟩ => show win0_7.index t (1 : Fin 2) * 64 + 1 * (y 1).val = (y 1).val; omega

/-- Window 8 is the whole parameter array at every point. -/
theorem blk_8 (c : Dev nD) (t : Fin cfg0.N) : (iblk0 V c 8 t : S64.Idx → EReal) = (V c main_arg11 : S64.Idx → EReal) := by
  funext y
  show (V c main_arg11 : S64.Idx → EReal) (((cfg0.win 8).blk t).view.emb y) = (V c main_arg11 : S64.Idx → EReal) y
  obtain ⟨e0, e1, e2, e3, e4, f1a, f1b, f2a, f3a, f4a, f5a, f6a, f7a, f7b, f8a⟩ := idx_facts t
  refine congrArg _ (funext fun a => Fin.ext ?_)
  match a with
    | ⟨0, _⟩ => show win0_8.index t (0 : Fin 1) * 64 + 1 * (y 0).val = (y 0).val; omega

/-- Entry `(p, q)` of the output window's block at point `t` is entry `(row t p, q)` of the output array. -/
theorem emb_out (t : Fin cfg0.N) (p : Fin 5000) (q : Fin 64) :
    ((cfg0.win 9).blk t).view.emb (ix2 p q) = (ix2 (row t p) q : S100000x64.Idx) := by
  obtain ⟨e0, e1, e2, e3, e4, f1a, f1b, f2a, f3a, f4a, f5a, f6a, f7a, f7b, f8a⟩ := idx_facts t
  funext a; apply Fin.ext
  match a with
  | ⟨0, _⟩ => show win0_9.index t (0 : Fin 2) * 5000 + 1 * p.val = win0_9.index t (0 : Fin 2) * 5000 + p.val; omega
  | ⟨1, _⟩ => show win0_9.index t (1 : Fin 2) * 64 + 1 * q.val = q.val; omega

/-- WHAT POINT `t` WRITES BACK is block `t` of `mlp1` of the arrays as the region finds them. -/
theorem flushed_eq (c : Dev nD) (t : Fin cfg0.N) :
    (dat0 (F := Ideal) V c).flushed 9 t
      = ((cfg0.win 9).blk t).view.read (Elt Ideal) (mlp1 (n := 100000) (V c main_v14 : S100000x64.Idx → EReal) (V c main_arg4 : S64x64.Idx → EReal) (V c main_arg5 : S64.Idx → EReal) (V c main_arg6 : S64.Idx → EReal) (V c main_arg7 : S64.Idx → EReal) (V c main_arg8 : S64.Idx → EReal) (V c main_arg9 : S64.Idx → EReal) (V c main_arg10 : S64x64.Idx → EReal) (V c main_arg11 : S64.Idx → EReal)) := by
  show (cfg0.win 9).cut (grid0.coords t) ((dat0 (F := Ideal) V c).after 9 t) = _
  rw [after0_9]
  unfold out0_9
  rw [View.canon_unit_zero hz2]
  simp only [View.ld_unit_zero (S := S5000x64) hz2, View.ld_unit_zero (S := S64x64) hz2, View.ld_unit_zero (S := S64) hz1]
  rw [pay0_eq]
  rw [blk_0 V c t, blk_1 V c t, blk_2 V c t, blk_3 V c t, blk_4 V c t, blk_5 V c t, blk_6 V c t, blk_7 V c t, blk_8 V c t]
  funext j
  obtain ⟨p, q, rfl⟩ : ∃ (p : Fin 5000) (q : Fin 64), j = ix2 p q := ⟨j 0, j 1, eq_ix2 j⟩
  show mlp1 (rows (row t) (V c main_v14 : S100000x64.Idx → EReal)) (V c main_arg4 : S64x64.Idx → EReal) (V c main_arg5 : S64.Idx → EReal) (V c main_arg6 : S64.Idx → EReal) (V c main_arg7 : S64.Idx → EReal) (V c main_arg8 : S64.Idx → EReal) (V c main_arg9 : S64.Idx → EReal) (V c main_arg10 : S64x64.Idx → EReal) (V c main_arg11 : S64.Idx → EReal) (ix2 p q)
    = mlp1 (n := 100000) (V c main_v14 : S100000x64.Idx → EReal) (V c main_arg4 : S64x64.Idx → EReal) (V c main_arg5 : S64.Idx → EReal) (V c main_arg6 : S64.Idx → EReal) (V c main_arg7 : S64.Idx → EReal) (V c main_arg8 : S64.Idx → EReal) (V c main_arg9 : S64.Idx → EReal) (V c main_arg10 : S64x64.Idx → EReal) (V c main_arg11 : S64.Idx → EReal) (((cfg0.win 9).blk t).view.emb (ix2 p q))
  rw [emb_out t p q]
  exact mlp1_rows (row t) _ _ _ _ _ _ _ _ _ p q

/-- An index of the array is in point `t`'s block iff each coordinate is in the block's range on its axis. -/
theorem mem_blk (t : Fin cfg0.N) (i : S100000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v15).slice (win0_9.rect t)).set ↔ _
  rw [View.set_slice_whole, Rect.mem_set_unit]
  exact Iff.rfl

/-- The twenty blocks of 5000 rows tile the 100000 rows: row `r` lies in the block of the point at block row `r / 5000`. -/
theorem cover (i : S100000x64.Idx) :
    ∃ t : Fin cfg0.N, (cfg0.win 9).flush t = true ∧ i ∈ ((cfg0.win 9).blk t).view.set := by
  have hi0 : (i 0).val < 100000 := (i 0).isLt
  have hi1 : (i 1).val < 64 := (i 1).isLt
  obtain ⟨t, ht⟩ := idx_onto ⟨(i 0).val / 5000, by omega⟩
  have ht' : win0_9.index t (0 : Fin 2) = (i 0).val / 5000 := ht
  obtain ⟨e0, e1, e2, e3, e4, f1a, f1b, f2a, f3a, f4a, f5a, f6a, f7a, f7b, f8a⟩ := idx_facts t
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 64 ≤ (i 1).val ∧ (i 1).val < win0_9.index t (1 : Fin 2) * 64 + 64; omega

/-- THE OUTPUT ARRAY after the region: `mlp1` of the arrays as the region finds them. -/
theorem final (c : Dev nD) :
    (dat0 (F := Ideal) V c).arrAt 9 cfg0.N = mlp1 (n := 100000) (V c main_v14 : S100000x64.Idx → EReal) (V c main_arg4 : S64x64.Idx → EReal) (V c main_arg5 : S64.Idx → EReal) (V c main_arg6 : S64.Idx → EReal) (V c main_arg7 : S64.Idx → EReal) (V c main_arg8 : S64.Idx → EReal) (V c main_arg9 : S64.Idx → EReal) (V c main_arg10 : S64x64.Idx → EReal) (V c main_arg11 : S64.Idx → EReal) :=
  (dat0 (F := Ideal) V c).arrAt_eq_of_cover 9 _ (fun t _ => flushed_eq V c t) cover

end Cert.KernelIdeal.Region0

end
-- ==== Proof.Pay1.lean ====
/-
  What the second kernel's body computes from the blocks it loads, as mathematics: with the loaded row block `h`
  (5000 rows of aggregated hidden features) and the whole parameter arrays, the one value it stores is the second
  convolution's layer `Net.mlp2` of that block — a matrix product, a batch normalisation and a rectifier.
-/
import proofs.«108532_j51857435132129_1_alg».proof.Proof.Gen.KernelIdeal.Skeleton
import proofs.«108532_j51857435132129_1_alg».proof.Proof.KernelOps
import proofs.«108532_j51857435132129_1_alg».proof.Proof.Spec

noncomputable section

namespace Cert.KernelIdeal.Body

open Cert.KernelIdeal Cert.KernelIdeal.Gen Idealize.ShloMosaic Idealize.ShloMosaic.ValueIdx Cert.Net

/-- The second kernel's stored value is `Net.mlp2` of the loaded block and parameters. -/
theorem pay1_eq (v0 : Vec Ideal S5000x64 .f32) (v2 : Vec Ideal S64x64 .f32) (v6 v10 v11 v12 v13 : Vec Ideal S64 .f32) :
    k1_pay1 (F := Ideal) v0 v2 v6 v10 v11 v12 v13 = mlp2 v0 v2 v6 v10 v11 v12 v13 := by
  unfold k1_pay1
  dsimp only
  simp only [shapeCast_self, row_rep, mm_block]
  rfl

end Cert.KernelIdeal.Body

end
-- ==== Proof.Region1.lean ====
/-
  The second kernel launch, read as a whole-array value.

  As in the first launch, 20 points each take 5000 consecutive rows of the aggregated hidden features and the whole of
  every parameter array, and write back the same rows of the output: the second convolution's layer of those rows.  The
  layer acts row by row and the twenty blocks tile the rows, so after the launch the output array is the layer of the
  whole feature array, whatever the arrays held on entry (`V`).
-/
import proofs.«108532_j51857435132129_1_alg».proof.Proof.Gen.KernelIdeal.Frame
import proofs.«108532_j51857435132129_1_alg».proof.Proof.Pay1
import proofs.«108532_j51857435132129_1_alg».proof.Proof.SpecRows
import Idealize.ShloMosaic.Lib.Pipeline.Value

noncomputable section

set_option maxRecDepth 16384

namespace Cert.KernelIdeal.Region1

open Cert.KernelIdeal Cert.KernelIdeal.Gen Cert.KernelIdeal.Body Idealize.ShloMosaic Idealize.ShloMosaic.TcCoe Idealize.ShloMosaic.ValueIdx Idealize.SL.Sem Cert.Net
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided once over the 20 grid points: the feature window and the output window sit at
    block row `t`, column block 0; every parameter window is its whole array. -/
theorem idx_facts : ∀ t : Fin cfg1.N,
    win1_0.index t (0 : Fin 2) = win1_7.index t (0 : Fin 2) ∧ win1_0.index t (1 : Fin 2) = 0
    ∧ win1_7.index t (1 : Fin 2) = 0 ∧ win1_7.index t (0 : Fin 2) ≤ 19 ∧ win1_7.index t (0 : Fin 2) = t.val
    ∧ win1_1.index t (0 : Fin 2) = 0 ∧ win1_1.index t (1 : Fin 2) = 0
    ∧ win1_2.index t (0 : Fin 1) = 0
    ∧ win1_3.index t (0 : Fin 1) = 0
    ∧ win1_4.index t (0 : Fin 1) = 0
    ∧ win1_5.index t (0 : Fin 1) = 0
    ∧ win1_6.index t (0 : Fin 1) = 0 :=
  (by decide +kernel : ∀ t : Fin grid1.N, _)

/-- Every block row is some point's. -/
theorem idx_onto : ∀ q0 : Fin 20, ∃ t : Fin cfg1.N, win1_7.index t (0 : Fin 2) = q0.val :=
  (by decide +kernel : ∀ q0 : Fin 20, ∃ t : Fin grid1.N, win1_7.index t (0 : Fin 2) = q0.val)

/-- Row `p` of point `t`'s block is row `5000·(block row of t) + p` of the array. -/
def row (t : Fin cfg1.N) (p : Fin 5000) : Fin 100000 :=
  ⟨win1_7.index t (0 : Fin 2) * 5000 + p.val, by
    obtain ⟨e0, e1, e2, e3, e4, f1a, f1b, f2a, f3a, f4a, f5a, f6a⟩ := idx_facts t
    have := p.isLt; omega⟩

/-- The feature window's block at point `t`: the 5000 rows `row t` of the feature array. -/
theorem blk_0 (c : Dev nD) (t : Fin cfg1.N) :
    (iblk1 V c 0 t : S5000x64.Idx → EReal) = rows (row t) (V c main_v26 : S100000x64.Idx → EReal) := by
  funext y
  show (V c main_v26 : S100000x64.Idx → EReal) (((cfg1.win 0).blk t).view.emb y) = (V c main_v26 : S100000x64.Idx → EReal) (ix2 (row t (y 0)) (y 1))
  obtain ⟨e0, e1, e2, e3, e4, f1a, f1b, f2a, f3a, f4a, f5a, f6a⟩ := idx_facts t
  refine congrArg _ (funext fun a => Fin.ext ?_)
  match a with
  | ⟨0, _⟩ => show win1_0.index t (0 : Fin 2) * 5000 + 1 * (y 0).val = win1_7.index t (0 : Fin 2) * 5000 + (y 0).val; omega
  | ⟨1, _⟩ => show win1_0.index t (1 : Fin 2) * 64 + 1 * (y 1).val = (y 1).val; omega

/-- Window 1 is the whole parameter array at every point. -/
theorem blk_1 (c : Dev nD) (t : Fin cfg1.N) : (iblk1 V c 1 t : S64x64.Idx → EReal) = (V c main_arg12 : S64x64.Idx → EReal) := by
  funext y
  show (V c main_arg12 : S64x64.Idx → EReal) (((cfg1.win 1).blk t).view.emb y) = (V c main_arg12 : S64x64.Idx → EReal) y
  obtain ⟨e0, e1, e2, e3, e4, f1a, f1b, f2a, f3a, f4a, f5a, f6a⟩ := idx_facts t
  refine congrArg _ (funext fun a => Fin.ext ?_)
  match a with
    | ⟨0, _⟩ => show win1_1.index t (0 : Fin 2) * 64 + 1 * (y 0).val = (y 0).val; omega
    | ⟨1, _⟩ => show win1_1.index t (1 : Fin 2) * 64 + 1 * (y 1).val = (y 1).val; omega

/-- Window 2 is the whole parameter array at every point. -/
theorem blk_2 (c : Dev nD) (t : Fin cfg1.N) : (iblk1 V c 2 t : S64.Idx → EReal) = (V c main_arg13 : S64.Idx → EReal) := by
  funext y
  show (V c main_arg13 : S64.Idx → EReal) (((cfg1.win 2).blk t).view.emb y) = (V c main_arg13 : S64.Idx → EReal) y
  obtain ⟨e0, e1, e2, e3, e4, f1a, f1b, f2a, f3a, f4a, f5a, f6a⟩ := idx_facts t
  refine congrArg _ (funext fun a => Fin.ext ?_)
  match a with
    | ⟨0, _⟩ => show win1_2.index t (0 : Fin 1) * 64 + 1 * (y 0).val = (y 0).val; omega

/-- Window 3 is the whole parameter array at every point. -/
theorem blk_3 (c : Dev nD) (t : Fin cfg1.N) : (iblk1 V c 3 t : S64.Idx → EReal) = (V c main_arg14 : S64.Idx → EReal) := by
  funext y
  show (V c main_arg14 : S64.Idx → EReal) (((cfg1.win 3).blk t).view.emb y) = (V c main_arg14 : S64.Idx → EReal) y
  obtain ⟨e0, e1, e2, e3, e4, f1a, f1b, f2a, f3a, f4a, f5a, f6a⟩ := idx_facts t
  refine congrArg _ (funext fun a => Fin.ext ?_)
  match a with
    | ⟨0, _⟩ => show win1_3.index t (0 : Fin 1) * 64 + 1 * (y 0).val = (y 0).val; omega

/-- Window 4 is the whole parameter array at every point. -/
theorem blk_4 (c : Dev nD) (t : Fin cfg1.N) : (iblk1 V c 4 t : S64.Idx → EReal) = (V c main_arg15 : S64.Idx → EReal) := by
  funext y
  show (V c main_arg15 : S64.Idx → EReal) (((cfg1.win 4).blk t).view.emb y) = (V c main_arg15 : S64.Idx → EReal) y
  obtain ⟨e0, e1, e2, e3, e4, f1a, f1b, f2a, f3a, f4a, f5a, f6a⟩ := idx_facts t
  refine congrArg _ (funext fun a => Fin.ext ?_)
  match a with
    | ⟨0, _⟩ => show win1_4.index t (0 : Fin 1) * 64 + 1 * (y 0).val = (y 0).val; omega

/-- Window 5 is the whole parameter array at every point. -/
theorem blk_5 (c : Dev nD) (t : Fin cfg1.N) : (iblk1 V c 5 t : S64.Idx → EReal) = (V c main_arg16 : S64.Idx → EReal) := by
  funext y
  show (V c main_arg16 : S64.Idx → EReal) (((cfg1.win 5).blk t).view.emb y) = (V c main_arg16 : S64.Idx → EReal) y
  obtain ⟨e0, e1, e2, e3, e4, f1a, f1b, f2a, f3a, f4a, f5a, f6a⟩ := idx_facts t
  refine congrArg _ (funext fun a => Fin.ext ?_)
  match a with
    | ⟨0, _⟩ => show win1_5.index t (0 : Fin 1) * 64 + 1 * (y 0).val = (y 0).val; omega

/-- Window 6 is the whole parameter array at every point. -/
theorem blk_6 (c : Dev nD) (t : Fin cfg1.N) : (iblk1 V c 6 t : S64.Idx → EReal) = (V c main_arg17 : S64.Idx → EReal) := by
  funext y
  show (V c main_arg17 : S64.Idx → EReal) (((cfg1.win 6).blk t).view.emb y) = (V c main_arg17 : S64.Idx → EReal) y
  obtain ⟨e0, e1, e2, e3, e4, f1a, f1b, f2a, f3a, f4a, f5a, f6a⟩ := idx_facts t
  refine congrArg _ (funext fun a => Fin.ext ?_)
  match a with
    | ⟨0, _⟩ => show win1_6.index t (0 : Fin 1) * 64 + 1 * (y 0).val = (y 0).val; omega

/-- Entry `(p, q)` of the output window's block at point `t` is entry `(row t p, q)` of the output array. -/
theorem emb_out (t : Fin cfg1.N) (p : Fin 5000) (q : Fin 64) :
    ((cfg1.win 7).blk t).view.emb (ix2 p q) = (ix2 (row t p) q : S100000x64.Idx) := by
  obtain ⟨e0, e1, e2, e3, e4, f1a, f1b, f2a, f3a, f4a, f5a, f6a⟩ := idx_facts t
  funext a; apply Fin.ext
  match a with
  | ⟨0, _⟩ => show win1_7.index t (0 : Fin 2) * 5000 + 1 * p.val = win1_7.index t (0 : Fin 2) * 5000 + p.val; omega
  | ⟨1, _⟩ => show win1_7.index t (1 : Fin 2) * 64 + 1 * q.val = q.val; omega

/-- WHAT POINT `t` WRITES BACK is block `t` of `mlp2` of the arrays as the region finds them. -/
theorem flushed_eq (c : Dev nD) (t : Fin cfg1.N) :
    (dat1 (F := Ideal) V c).flushed 7 t
      = ((cfg1.win 7).blk t).view.read (Elt Ideal) (mlp2 (n := 100000) (V c main_v26 : S100000x64.Idx → EReal) (V c main_arg12 : S64x64.Idx → EReal) (V c main_arg13 : S64.Idx → EReal) (V c main_arg14 : S64.Idx → EReal) (V c main_arg15 : S64.Idx → EReal) (V c main_arg16 : S64.Idx → EReal) (V c main_arg17 : S64.Idx → EReal)) := by
  show (cfg1.win 7).cut (grid1.coords t) ((dat1 (F := Ideal) V c).after 7 t) = _
  rw [after1_7]
  unfold out1_7
  rw [View.canon_unit_zero hz2]
  simp only [View.ld_unit_zero (S := S5000x64) hz2, View.ld_unit_zero (S := S64x64) hz2, View.ld_unit_zero (S := S64) hz1]
  rw [pay1_eq]
  rw [blk_0 V c t, blk_1 V c t, blk_2 V c t, blk_3 V c t, blk_4 V c t, blk_5 V c t, blk_6 V c t]
  funext j
  obtain ⟨p, q, rfl⟩ : ∃ (p : Fin 5000) (q : Fin 64), j = ix2 p q := ⟨j 0, j 1, eq_ix2 j⟩
  show mlp2 (rows (row t) (V c main_v26 : S100000x64.Idx → EReal)) (V c main_arg12 : S64x64.Idx → EReal) (V c main_arg13 : S64.Idx → EReal) (V c main_arg14 : S64.Idx → EReal) (V c main_arg15 : S64.Idx → EReal) (V c main_arg16 : S64.Idx → EReal) (V c main_arg17 : S64.Idx → EReal) (ix2 p q)
    = mlp2 (n := 100000) (V c main_v26 : S100000x64.Idx → EReal) (V c main_arg12 : S64x64.Idx → EReal) (V c main_arg13 : S64.Idx → EReal) (V c main_arg14 : S64.Idx → EReal) (V c main_arg15 : S64.Idx → EReal) (V c main_arg16 : S64.Idx → EReal) (V c main_arg17 : S64.Idx → EReal) (((cfg1.win 7).blk t).view.emb (ix2 p q))
  rw [emb_out t p q]
  exact mlp2_rows (row t) _ _ _ _ _ _ _ p q

/-- An index of the array is in point `t`'s block iff each coordinate is in the block's range on its axis. -/
theorem mem_blk (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v27).slice (win1_7.rect t)).set ↔ _
  rw [View.set_slice_whole, Rect.mem_set_unit]
  exact Iff.rfl

/-- The twenty blocks of 5000 rows tile the 100000 rows: row `r` lies in the block of the point at block row `r / 5000`. -/
theorem cover (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  obtain ⟨t, ht⟩ := idx_onto ⟨(i 0).val / 5000, by omega⟩
  have ht' : win1_7.index t (0 : Fin 2) = (i 0).val / 5000 := ht
  obtain ⟨e0, e1, e2, e3, e4, f1a, f1b, f2a, f3a, f4a, f5a, f6a⟩ := idx_facts t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- THE OUTPUT ARRAY after the region: `mlp2` of the arrays as the region finds them. -/
theorem final (c : Dev nD) :
    (dat1 (F := Ideal) V c).arrAt 7 cfg1.N = mlp2 (n := 100000) (V c main_v26 : S100000x64.Idx → EReal) (V c main_arg12 : S64x64.Idx → EReal) (V c main_arg13 : S64.Idx → EReal) (V c main_arg14 : S64.Idx → EReal) (V c main_arg15 : S64.Idx → EReal) (V c main_arg16 : S64.Idx → EReal) (V c main_arg17 : S64.Idx → EReal) :=
  (dat1 (F := Ideal) V c).arrAt_eq_of_cover 7 _ (fun t _ => flushed_eq V c t) cover

end Cert.KernelIdeal.Region1

end
-- ==== Proof.Pay2.lean ====
/-
  What the third kernel's body computes, as mathematics: from the pooled structure features, the topological features
  and the classifier's parameters (its weight already cut into its two row halves) the one value it stores is the
  classifier `Net.head`: the structure features against the first half, plus the rectified embedding of the topological
  features against the second half, plus the bias.
-/
import proofs.«108532_j51857435132129_1_alg».proof.Proof.Gen.KernelIdeal.Skeleton
import proofs.«108532_j51857435132129_1_alg».proof.Proof.KernelOps
import proofs.«108532_j51857435132129_1_alg».proof.Proof.Spec

noncomputable section

namespace Cert.KernelIdeal.Body

open Cert.KernelIdeal Cert.KernelIdeal.Gen Idealize.ShloMosaic Idealize.ShloMosaic.ValueIdx Cert.Net

/-- The third kernel's stored value is `Net.head` of what it loads. -/
theorem pay2_eq (v0 v2 : Vec Ideal S1000x64 .f32) (v3 : Vec Ideal S64x64 .f32) (v7 : Vec Ideal S64 .f32)
    (v13 v15 : Vec Ideal S64x10 .f32) (v24 : Vec Ideal S10 .f32) :
    k2_pay1 (F := Ideal) v0 v2 v3 v7 v13 v15 v24 = head v0 v2 v3 v7 v13 v15 v24 := by
  unfold k2_pay1
  dsimp only
  simp only [shapeCast_self, row_rep, mm_topo, mm_cls]
  rfl

end Cert.KernelIdeal.Body

end
-- ==== Proof.Region2.lean ====
/-
  The third kernel launch, read as a whole-array value.

  The launch has a single point, and every window is its whole array: the pooled structure features, the topological
  features, the embedding's weight and bias, the two row halves of the classifier's weight, its bias, and the
  `[1000, 10]` output.  The body's value is the classifier `Net.head` of what it loads, and the one block is the whole
  output, so after the launch the output array is `Net.head` of the arrays as the launch finds them (`V`).
-/
import proofs.«108532_j51857435132129_1_alg».proof.Proof.Gen.KernelIdeal.Frame
import proofs.«108532_j51857435132129_1_alg».proof.Proof.Pay2
import Idealize.ShloMosaic.Lib.Pipeline.Value

noncomputable section

set_option maxRecDepth 16384

namespace Cert.KernelIdeal.Region2

open Cert.KernelIdeal Cert.KernelIdeal.Gen Cert.KernelIdeal.Body Idealize.ShloMosaic Idealize.ShloMosaic.TcCoe Idealize.ShloMosaic.ValueIdx Idealize.SL.Sem Cert.Net
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps at the one grid point: every window sits at block 0 on every axis. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0 :=
  (by decide +kernel : ∀ t : Fin grid2.N, _)

/-- Window 0 is its whole array. -/
theorem blk_0 (c : Dev nD) (t : Fin cfg2.N) : (iblk2 V c 0 t : S1000x64.Idx → EReal) = (V c main_v30 : S1000x64.Idx → EReal) := by
  funext y
  show (V c main_v30 : S1000x64.Idx → EReal) (((cfg2.win 0).blk t).view.emb y) = (V c main_v30 : S1000x64.Idx → EReal) y
  obtain ⟨f0a, f0b, f1a, f1b, f2a, f2b, f3a, f4a, f4b, f5a, f5b, f6a, f7a, f7b⟩ := idx_facts t
  refine congrArg _ (funext fun a => Fin.ext ?_)
  match a with
  | ⟨0, _⟩ => show win2_0.index t (0 : Fin 2) * 1000 + 1 * (y 0).val = (y 0).val; omega
  | ⟨1, _⟩ => show win2_0.index t (1 : Fin 2) * 64 + 1 * (y 1).val = (y 1).val; omega

/-- Window 1 is its whole array. -/
theorem blk_1 (c : Dev nD) (t : Fin cfg2.N) : (iblk2 V c 1 t : S1000x64.Idx → EReal) = (V c main_arg3 : S1000x64.Idx → EReal) := by
  funext y
  show (V c main_arg3 : S1000x64.Idx → EReal) (((cfg2.win 1).blk t).view.emb y) = (V c main_arg3 : S1000x64.Idx → EReal) y
  obtain ⟨f0a, f0b, f1a, f1b, f2a, f2b, f3a, f4a, f4b, f5a, f5b, f6a, f7a, f7b⟩ := idx_facts t
  refine congrArg _ (funext fun a => Fin.ext ?_)
  match a with
  | ⟨0, _⟩ => show win2_1.index t (0 : Fin 2) * 1000 + 1 * (y 0).val = (y 0).val; omega
  | ⟨1, _⟩ => show win2_1.index t (1 : Fin 2) * 64 + 1 * (y 1).val = (y 1).val; omega

/-- Window 2 is its whole array. -/
theorem blk_2 (c : Dev nD) (t : Fin cfg2.N) : (iblk2 V c 2 t : S64x64.Idx → EReal) = (V c main_arg18 : S64x64.Idx → EReal) := by
  funext y
  show (V c main_arg18 : S64x64.Idx → EReal) (((cfg2.win 2).blk t).view.emb y) = (V c main_arg18 : S64x64.Idx → EReal) y
  obtain ⟨f0a, f0b, f1a, f1b, f2a, f2b, f3a, f4a, f4b, f5a, f5b, f6a, f7a, f7b⟩ := idx_facts t
  refine congrArg _ (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Window 3 is its whole array. -/
theorem blk_3 (c : Dev nD) (t : Fin cfg2.N) : (iblk2 V c 3 t : S64.Idx → EReal) = (V c main_arg19 : S64.Idx → EReal) := by
  funext y
  show (V c main_arg19 : S64.Idx → EReal) (((cfg2.win 3).blk t).view.emb y) = (V c main_arg19 : S64.Idx → EReal) y
  obtain ⟨f0a, f0b, f1a, f1b, f2a, f2b, f3a, f4a, f4b, f5a, f5b, f6a, f7a, f7b⟩ := idx_facts t
  refine congrArg _ (funext fun a => Fin.ext ?_)
  match a with
  | ⟨0, _⟩ => show win2_3.index t (0 : Fin 1) * 64 + 1 * (y 0).val = (y 0).val; omega

/-- Window 4 is its whole array. -/
theorem blk_4 (c : Dev nD) (t : Fin cfg2.N) : (iblk2 V c 4 t : S64x10.Idx → EReal) = (V c main_v31 : S64x10.Idx → EReal) := by
  funext y
  show (V c main_v31 : S64x10.Idx → EReal) (((cfg2.win 4).blk t).view.emb y) = (V c main_v31 : S64x10.Idx → EReal) y
  obtain ⟨f0a, f0b, f1a, f1b, f2a, f2b, f3a, f4a, f4b, f5a, f5b, f6a, f7a, f7b⟩ := idx_facts t
  refine congrArg _ (funext fun a => Fin.ext ?_)
  match a with
  | ⟨0, _⟩ => show win2_4.index t (0 : Fin 2) * 64 + 1 * (y 0).val = (y 0).val; omega
  | ⟨1, _⟩ => show win2_4.index t (1 : Fin 2) * 10 + 1 * (y 1).val = (y 1).val; omega

/-- Window 5 is its whole array. -/
theorem blk_5 (c : Dev nD) (t : Fin cfg2.N) : (iblk2 V c 5 t : S64x10.Idx → EReal) = (V c main_v32 : S64x10.Idx → EReal) := by
  funext y
  show (V c main_v32 : S64x10.Idx → EReal) (((cfg2.win 5).blk t).view.emb y) = (V c main_v32 : S64x10.Idx → EReal) y
  obtain ⟨f0a, f0b, f1a, f1b, f2a, f2b, f3a, f4a, f4b, f5a, f5b, f6a, f7a, f7b⟩ := idx_facts t
  refine congrArg _ (funext fun a => Fin.ext ?_)
  match a with
  | ⟨0, _⟩ => show win2_5.index t (0 : Fin 2) * 64 + 1 * (y 0).val = (y 0).val; omega
  | ⟨1, _⟩ => show win2_5.index t (1 : Fin 2) * 10 + 1 * (y 1).val = (y 1).val; omega

/-- Window 6 is its whole array. -/
theorem blk_6 (c : Dev nD) (t : Fin cfg2.N) : (iblk2 V c 6 t : S10.Idx → EReal) = (V c main_arg21 : S10.Idx → EReal) := by
  funext y
  show (V c main_arg21 : S10.Idx → EReal) (((cfg2.win 6).blk t).view.emb y) = (V c main_arg21 : S10.Idx → EReal) y
  obtain ⟨f0a, f0b, f1a, f1b, f2a, f2b, f3a, f4a, f4b, f5a, f5b, f6a, f7a, f7b⟩ := idx_facts t
  refine congrArg _ (funext fun a => Fin.ext ?_)
  match a with
  | ⟨0, _⟩ => show win2_6.index t (0 : Fin 1) * 10 + 1 * (y 0).val = (y 0).val; omega

/-- The output window's one block is the whole output array. -/
theorem emb_out (t : Fin cfg2.N) (j : S1000x10.Idx) : ((cfg2.win 7).blk t).view.emb j = (j : S1000x10.Idx) := by
  obtain ⟨f0a, f0b, f1a, f1b, f2a, f2b, f3a, f4a, f4b, f5a, f5b, f6a, f7a, f7b⟩ := idx_facts t
  funext a; apply Fin.ext
  match a with
  | ⟨0, _⟩ => show win2_7.index t (0 : Fin 2) * 1000 + 1 * (j 0).val = (j 0).val; omega
  | ⟨1, _⟩ => show win2_7.index t (1 : Fin 2) * 10 + 1 * (j 1).val = (j 1).val; omega

/-- WHAT THE POINT WRITES BACK is the (one) block of `head` of the arrays as the region finds them. -/
theorem flushed_eq (c : Dev nD) (t : Fin cfg2.N) :
    (dat2 (F := Ideal) V c).flushed 7 t
      = ((cfg2.win 7).blk t).view.read (Elt Ideal) (head (n := 1000) (m := 10) (V c main_v30 : S1000x64.Idx → EReal) (V c main_arg3 : S1000x64.Idx → EReal) (V c main_arg18 : S64x64.Idx → EReal) (V c main_arg19 : S64.Idx → EReal) (V c main_v31 : S64x10.Idx → EReal) (V c main_v32 : S64x10.Idx → EReal) (V c main_arg21 : S10.Idx → EReal)) := by
  show (cfg2.win 7).cut (grid2.coords t) ((dat2 (F := Ideal) V c).after 7 t) = _
  rw [after2_7]
  unfold out2_7
  rw [View.canon_unit_zero hz2]
  simp only [View.ld_unit_zero (S := S1000x64) hz2, View.ld_unit_zero (S := S64x64) hz2, View.ld_unit_zero (S := S64) hz1,
    View.ld_unit_zero (S := S64x10) hz2, View.ld_unit_zero (S := S10) hz1]
  rw [pay2_eq]
  rw [blk_0 V c t, blk_1 V c t, blk_2 V c t, blk_3 V c t, blk_4 V c t, blk_5 V c t, blk_6 V c t]
  funext j
  show head (n := 1000) (m := 10) (V c main_v30 : S1000x64.Idx → EReal) (V c main_arg3 : S1000x64.Idx → EReal) (V c main_arg18 : S64x64.Idx → EReal) (V c main_arg19 : S64.Idx → EReal) (V c main_v31 : S64x10.Idx → EReal) (V c main_v32 : S64x10.Idx → EReal) (V c main_arg21 : S10.Idx → EReal) j
    = head (n := 1000) (m := 10) (V c main_v30 : S1000x64.Idx → EReal) (V c main_arg3 : S1000x64.Idx → EReal) (V c main_arg18 : S64x64.Idx → EReal) (V c main_arg19 : S64.Idx → EReal) (V c main_v31 : S64x10.Idx → EReal) (V c main_v32 : S64x10.Idx → EReal) (V c main_arg21 : S10.Idx → EReal) (((cfg2.win 7).blk t).view.emb j)
  rw [emb_out t j]

/-- An index of the array is in the point's block iff each coordinate is in the block's range on its axis. -/
theorem mem_blk (t : Fin cfg2.N) (i : S1000x10.Idx) :
    i ∈ ((cfg2.win 7).blk t).view.set ↔ ∀ a : Fin 2, win2_7.index t a * S1000x10.size a ≤ (i a).val ∧ (i a).val < win2_7.index t a * S1000x10.size a + S1000x10.size a := by
  show i ∈ ((View.whole main_v33).slice (win2_7.rect t)).set ↔ _
  rw [View.set_slice_whole, Rect.mem_set_unit]
  exact Iff.rfl

/-- The one block covers the output array. -/
theorem cover (i : S1000x10.Idx) :
    ∃ t : Fin cfg2.N, (cfg2.win 7).flush t = true ∧ i ∈ ((cfg2.win 7).blk t).view.set := by
  have hi0 : (i 0).val < 1000 := (i 0).isLt
  have hi1 : (i 1).val < 10 := (i 1).isLt
  let t : Fin cfg2.N := t2_0
  obtain ⟨f0a, f0b, f1a, f1b, f2a, f2b, f3a, f4a, f4b, f5a, f5b, f6a, f7a, f7b⟩ := idx_facts t
  refine ⟨t, flush2_7 t, ?_⟩
  rw [mem_blk]
  intro a
  match a with
  | ⟨0, _⟩ => show win2_7.index t (0 : Fin 2) * 1000 ≤ (i 0).val ∧ (i 0).val < win2_7.index t (0 : Fin 2) * 1000 + 1000; omega
  | ⟨1, _⟩ => show win2_7.index t (1 : Fin 2) * 10 ≤ (i 1).val ∧ (i 1).val < win2_7.index t (1 : Fin 2) * 10 + 10; omega

/-- THE OUTPUT ARRAY after the region: `head` of the arrays as the region finds them. -/
theorem final (c : Dev nD) :
    (dat2 (F := Ideal) V c).arrAt 7 cfg2.N = head (n := 1000) (m := 10) (V c main_v30 : S1000x64.Idx → EReal) (V c main_arg3 : S1000x64.Idx → EReal) (V c main_arg18 : S64x64.Idx → EReal) (V c main_arg19 : S64.Idx → EReal) (V c main_v31 : S64x10.Idx → EReal) (V c main_v32 : S64x10.Idx → EReal) (V c main_arg21 : S10.Idx → EReal) :=
  (dat2 (F := Ideal) V c).arrAt_eq_of_cover 7 _ (fun t _ => flushed_eq V c t) cover

end Cert.KernelIdeal.Region2

end
-- ==== Proof.RefPool.lean ====
/-
  The per-graph pooling, named.

  The reference sums the node features of each graph into that graph's row: a scatter-add of the `[100000, 64]` features
  into a zero `[1000, 64]` array along the graph ids.  Nothing in the equivalence looks inside it, so it is named as one
  function of the feature array and the graph ids, and the reference's pooled features are that function of its second
  convolution's output.
-/
import proofs.«108532_j51857435132129_1_alg».proof.Proof.Gen.ReferenceIdeal.Read

noncomputable section

set_option maxRecDepth 16384

namespace Cert.ReferenceIdeal.RefValue

open Cert.ReferenceIdeal Cert.ReferenceIdeal.Read Idealize.ShloMosaic

/-- Graph `b`'s row: the sum of the rows of `h` whose graph id is `b`. -/
def pool (h : FVec Ideal S100000x64 .f32) (x2 : (⟨S100000, .i32⟩ : BufTy).Contents (Elt Ideal)) : FVec Ideal S1000x64 .f32 :=
  Host.scatterAdd (F := Ideal) scatter_S1000x64_S100000x1_S100000x64_1_0_0_1 (val_main_v73 (F := Ideal)) (val_main_v74 (F := Ideal) x2) h

variable (x0 : S100000x64.Idx → EReal) (x1 : (⟨S2x1200000, .i32⟩ : BufTy).Contents (Elt Ideal))
  (x2 : (⟨S100000, .i32⟩ : BufTy).Contents (Elt Ideal)) (x3 : S1000x64.Idx → EReal)
  (x4 : S64x64.Idx → EReal) (x5 x6 x7 x8 x9 : S64.Idx → EReal) (x10 : S64x64.Idx → EReal) (x11 : S64.Idx → EReal)
  (x12 : S64x64.Idx → EReal) (x13 x14 x15 x16 x17 : S64.Idx → EReal) (x18 : S64x64.Idx → EReal) (x19 : S64.Idx → EReal)
  (x20 : S128x10.Idx → EReal) (x21 : S10.Idx → EReal)

/-- The reference's pooled features are the pooling of its second convolution's output. -/
theorem ref_pool : val_main_v75 (F := Ideal) x0 x1 x2 x4 x5 x6 x7 x8 x9 x10 x11 x12 x13 x14 x15 x16 x17 = pool (val_main_v72 (F := Ideal) x0 x1 x4 x5 x6 x7 x8 x9 x10 x11 x12 x13 x14 x15 x16 x17) x2 := rfl

end Cert.ReferenceIdeal.RefValue

end
-- ==== Proof.Fold.lean ====
/-
  The idealized kernel's result array, followed back through @main to the launch memory.

  @main is three stretches of host operations and three kernel launches.  Read from the end: the result is the third
  launch's output, the classifier of the arrays that launch finds; of those, the pooled features are the pooling (a
  host scatter-add) of the second launch's output, and the two halves of the classifier's weight are the two host
  slices of the weight argument.  The second launch's output is the second convolution's layer of the aggregated
  hidden features, which the host computes from the first launch's output by a gather and a scatter-add along the edge
  list; the first launch's output is the first convolution's perceptron of the aggregated node features, which the host
  computes the same way from the node features.  No host operation and no launch writes a parameter array, so wherever
  a launch reads a parameter it reads the launch memory.

  The host's aggregation and pooling are the same operations in the reference program, so they are stated here as the
  reference's own functions of their operands and never opened.
-/
import proofs.«108532_j51857435132129_1_alg».proof.Proof.Region0
import proofs.«108532_j51857435132129_1_alg».proof.Proof.Region1
import proofs.«108532_j51857435132129_1_alg».proof.Proof.Region2
import proofs.«108532_j51857435132129_1_alg».proof.Proof.RefPool
import Idealize.ShloMosaic.Lib.StableHlo.Run

noncomputable section

set_option maxRecDepth 16384

namespace Cert.KernelIdeal.Fold

open Cert.KernelIdeal Cert.KernelIdeal.Gen Idealize.ShloMosaic Idealize.ShloMosaic.TcCoe Idealize.ShloMosaic.ValueIdx
open Idealize.SL.Sem Idealize.ShloMosaic.StableHlo Cert.Net

variable (m : (ℓ : Loc nD τ sig) → Buf (Elt Ideal) ℓ) (ρ : Dev nD → PrngReg) (c : Dev nD)

/-! ## The parameter arrays stay at their launch contents through every boundary that reads them -/

theorem k1_main_arg2 : W1 m ρ c (Proc.devRef .tc main_arg2) = m ((c : Thread nD τ).loc main_arg2) := by
  show StableHlo.after hostOps0 (W0 m ρ c) (Proc.devRef .tc main_arg2) = _
  dsimp only [hostOps0]; after_results
theorem k1_main_arg3 : W1 m ρ c (Proc.devRef .tc main_arg3) = m ((c : Thread nD τ).loc main_arg3) := by
  show StableHlo.after hostOps0 (W0 m ρ c) (Proc.devRef .tc main_arg3) = _
  dsimp only [hostOps0]; after_results
theorem k1_main_arg4 : W1 m ρ c (Proc.devRef .tc main_arg4) = m ((c : Thread nD τ).loc main_arg4) := by
  show StableHlo.after hostOps0 (W0 m ρ c) (Proc.devRef .tc main_arg4) = _
  dsimp only [hostOps0]; after_results
theorem k1_main_arg5 : W1 m ρ c (Proc.devRef .tc main_arg5) = m ((c : Thread nD τ).loc main_arg5) := by
  show StableHlo.after hostOps0 (W0 m ρ c) (Proc.devRef .tc main_arg5) = _
  dsimp only [hostOps0]; after_results
theorem k1_main_arg6 : W1 m ρ c (Proc.devRef .tc main_arg6) = m ((c : Thread nD τ).loc main_arg6) := by
  show StableHlo.after hostOps0 (W0 m ρ c) (Proc.devRef .tc main_arg6) = _
  dsimp only [hostOps0]; after_results
theorem k1_main_arg7 : W1 m ρ c (Proc.devRef .tc main_arg7) = m ((c : Thread nD τ).loc main_arg7) := by
  show StableHlo.after hostOps0 (W0 m ρ c) (Proc.devRef .tc main_arg7) = _
  dsimp only [hostOps0]; after_results
theorem k1_main_arg8 : W1 m ρ c (Proc.devRef .tc main_arg8) = m ((c : Thread nD τ).loc main_arg8) := by
  show StableHlo.after hostOps0 (W0 m ρ c) (Proc.devRef .tc main_arg8) = _
  dsimp only [hostOps0]; after_results
theorem k1_main_arg9 : W1 m ρ c (Proc.devRef .tc main_arg9) = m ((c : Thread nD τ).loc main_arg9) := by
  show StableHlo.after hostOps0 (W0 m ρ c) (Proc.devRef .tc main_arg9) = _
  dsimp only [hostOps0]; after_results
theorem k1_main_arg10 : W1 m ρ c (Proc.devRef .tc main_arg10) = m ((c : Thread nD τ).loc main_arg10) := by
  show StableHlo.after hostOps0 (W0 m ρ c) (Proc.devRef .tc main_arg10) = _
  dsimp only [hostOps0]; after_results
theorem k1_main_arg11 : W1 m ρ c (Proc.devRef .tc main_arg11) = m ((c : Thread nD τ).loc main_arg11) := by
  show StableHlo.after hostOps0 (W0 m ρ c) (Proc.devRef .tc main_arg11) = _
  dsimp only [hostOps0]; after_results
theorem k1_main_arg12 : W1 m ρ c (Proc.devRef .tc main_arg12) = m ((c : Thread nD τ).loc main_arg12) := by
  show StableHlo.after hostOps0 (W0 m ρ c) (Proc.devRef .tc main_arg12) = _
  dsimp only [hostOps0]; after_results
theorem k1_main_arg13 : W1 m ρ c (Proc.devRef .tc main_arg13) = m ((c : Thread nD τ).loc main_arg13) := by
  show StableHlo.after hostOps0 (W0 m ρ c) (Proc.devRef .tc main_arg13) = _
  dsimp only [hostOps0]; after_results
theorem k1_main_arg14 : W1 m ρ c (Proc.devRef .tc main_arg14) = m ((c : Thread nD τ).loc main_arg14) := by
  show StableHlo.after hostOps0 (W0 m ρ c) (Proc.devRef .tc main_arg14) = _
  dsimp only [hostOps0]; after_results
theorem k1_main_arg15 : W1 m ρ c (Proc.devRef .tc main_arg15) = m ((c : Thread nD τ).loc main_arg15) := by
  show StableHlo.after hostOps0 (W0 m ρ c) (Proc.devRef .tc main_arg15) = _
  dsimp only [hostOps0]; after_results
theorem k1_main_arg16 : W1 m ρ c (Proc.devRef .tc main_arg16) = m ((c : Thread nD τ).loc main_arg16) := by
  show StableHlo.after hostOps0 (W0 m ρ c) (Proc.devRef .tc main_arg16) = _
  dsimp only [hostOps0]; after_results
theorem k1_main_arg17 : W1 m ρ c (Proc.devRef .tc main_arg17) = m ((c : Thread nD τ).loc main_arg17) := by
  show StableHlo.after hostOps0 (W0 m ρ c) (Proc.devRef .tc main_arg17) = _
  dsimp only [hostOps0]; after_results
theorem k1_main_arg18 : W1 m ρ c (Proc.devRef .tc main_arg18) = m ((c : Thread nD τ).loc main_arg18) := by
  show StableHlo.after hostOps0 (W0 m ρ c) (Proc.devRef .tc main_arg18) = _
  dsimp only [hostOps0]; after_results
theorem k1_main_arg19 : W1 m ρ c (Proc.devRef .tc main_arg19) = m ((c : Thread nD τ).loc main_arg19) := by
  show StableHlo.after hostOps0 (W0 m ρ c) (Proc.devRef .tc main_arg19) = _
  dsimp only [hostOps0]; after_results
theorem k1_main_arg20 : W1 m ρ c (Proc.devRef .tc main_arg20) = m ((c : Thread nD τ).loc main_arg20) := by
  show StableHlo.after hostOps0 (W0 m ρ c) (Proc.devRef .tc main_arg20) = _
  dsimp only [hostOps0]; after_results
theorem k1_main_arg21 : W1 m ρ c (Proc.devRef .tc main_arg21) = m ((c : Thread nD τ).loc main_arg21) := by
  show StableHlo.after hostOps0 (W0 m ρ c) (Proc.devRef .tc main_arg21) = _
  dsimp only [hostOps0]; after_results
theorem k2_main_arg2 : W2 m ρ c (Proc.devRef .tc main_arg2) = m ((c : Thread nD τ).loc main_arg2) :=
  (W2_of_ne m ρ c main_arg2 (by decide)).trans (k1_main_arg2 m ρ c)
theorem k2_main_arg3 : W2 m ρ c (Proc.devRef .tc main_arg3) = m ((c : Thread nD τ).loc main_arg3) :=
  (W2_of_ne m ρ c main_arg3 (by decide)).trans (k1_main_arg3 m ρ c)
theorem k2_main_arg12 : W2 m ρ c (Proc.devRef .tc main_arg12) = m ((c : Thread nD τ).loc main_arg12) :=
  (W2_of_ne m ρ c main_arg12 (by decide)).trans (k1_main_arg12 m ρ c)
theorem k2_main_arg13 : W2 m ρ c (Proc.devRef .tc main_arg13) = m ((c : Thread nD τ).loc main_arg13) :=
  (W2_of_ne m ρ c main_arg13 (by decide)).trans (k1_main_arg13 m ρ c)
theorem k2_main_arg14 : W2 m ρ c (Proc.devRef .tc main_arg14) = m ((c : Thread nD τ).loc main_arg14) :=
  (W2_of_ne m ρ c main_arg14 (by decide)).trans (k1_main_arg14 m ρ c)
theorem k2_main_arg15 : W2 m ρ c (Proc.devRef .tc main_arg15) = m ((c : Thread nD τ).loc main_arg15) :=
  (W2_of_ne m ρ c main_arg15 (by decide)).trans (k1_main_arg15 m ρ c)
theorem k2_main_arg16 : W2 m ρ c (Proc.devRef .tc main_arg16) = m ((c : Thread nD τ).loc main_arg16) :=
  (W2_of_ne m ρ c main_arg16 (by decide)).trans (k1_main_arg16 m ρ c)
theorem k2_main_arg17 : W2 m ρ c (Proc.devRef .tc main_arg17) = m ((c : Thread nD τ).loc main_arg17) :=
  (W2_of_ne m ρ c main_arg17 (by decide)).trans (k1_main_arg17 m ρ c)
theorem k2_main_arg18 : W2 m ρ c (Proc.devRef .tc main_arg18) = m ((c : Thread nD τ).loc main_arg18) :=
  (W2_of_ne m ρ c main_arg18 (by decide)).trans (k1_main_arg18 m ρ c)
theorem k2_main_arg19 : W2 m ρ c (Proc.devRef .tc main_arg19) = m ((c : Thread nD τ).loc main_arg19) :=
  (W2_of_ne m ρ c main_arg19 (by decide)).trans (k1_main_arg19 m ρ c)
theorem k2_main_arg20 : W2 m ρ c (Proc.devRef .tc main_arg20) = m ((c : Thread nD τ).loc main_arg20) :=
  (W2_of_ne m ρ c main_arg20 (by decide)).trans (k1_main_arg20 m ρ c)
theorem k2_main_arg21 : W2 m ρ c (Proc.devRef .tc main_arg21) = m ((c : Thread nD τ).loc main_arg21) :=
  (W2_of_ne m ρ c main_arg21 (by decide)).trans (k1_main_arg21 m ρ c)
theorem k3_main_arg2 : W3 m ρ c (Proc.devRef .tc main_arg2) = m ((c : Thread nD τ).loc main_arg2) := by
  show StableHlo.after hostOps1 (W2 m ρ c) (Proc.devRef .tc main_arg2) = _
  dsimp only [hostOps1]; after_results; exact k2_main_arg2 m ρ c
theorem k3_main_arg3 : W3 m ρ c (Proc.devRef .tc main_arg3) = m ((c : Thread nD τ).loc main_arg3) := by
  show StableHlo.after hostOps1 (W2 m ρ c) (Proc.devRef .tc main_arg3) = _
  dsimp only [hostOps1]; after_results; exact k2_main_arg3 m ρ c
theorem k3_main_arg12 : W3 m ρ c (Proc.devRef .tc main_arg12) = m ((c : Thread nD τ).loc main_arg12) := by
  show StableHlo.after hostOps1 (W2 m ρ c) (Proc.devRef .tc main_arg12) = _
  dsimp only [hostOps1]; after_results; exact k2_main_arg12 m ρ c
theorem k3_main_arg13 : W3 m ρ c (Proc.devRef .tc main_arg13) = m ((c : Thread nD τ).loc main_arg13) := by
  show StableHlo.after hostOps1 (W2 m ρ c) (Proc.devRef .tc main_arg13) = _
  dsimp only [hostOps1]; after_results; exact k2_main_arg13 m ρ c
theorem k3_main_arg14 : W3 m ρ c (Proc.devRef .tc main_arg14) = m ((c : Thread nD τ).loc main_arg14) := by
  show StableHlo.after hostOps1 (W2 m ρ c) (Proc.devRef .tc main_arg14) = _
  dsimp only [hostOps1]; after_results; exact k2_main_arg14 m ρ c
theorem k3_main_arg15 : W3 m ρ c (Proc.devRef .tc main_arg15) = m ((c : Thread nD τ).loc main_arg15) := by
  show StableHlo.after hostOps1 (W2 m ρ c) (Proc.devRef .tc main_arg15) = _
  dsimp only [hostOps1]; after_results; exact k2_main_arg15 m ρ c
theorem k3_main_arg16 : W3 m ρ c (Proc.devRef .tc main_arg16) = m ((c : Thread nD τ).loc main_arg16) := by
  show StableHlo.after hostOps1 (W2 m ρ c) (Proc.devRef .tc main_arg16) = _
  dsimp only [hostOps1]; after_results; exact k2_main_arg16 m ρ c
theorem k3_main_arg17 : W3 m ρ c (Proc.devRef .tc main_arg17) = m ((c : Thread nD τ).loc main_arg17) := by
  show StableHlo.after hostOps1 (W2 m ρ c) (Proc.devRef .tc main_arg17) = _
  dsimp only [hostOps1]; after_results; exact k2_main_arg17 m ρ c
theorem k3_main_arg18 : W3 m ρ c (Proc.devRef .tc main_arg18) = m ((c : Thread nD τ).loc main_arg18) := by
  show StableHlo.after hostOps1 (W2 m ρ c) (Proc.devRef .tc main_arg18) = _
  dsimp only [hostOps1]; after_results; exact k2_main_arg18 m ρ c
theorem k3_main_arg19 : W3 m ρ c (Proc.devRef .tc main_arg19) = m ((c : Thread nD τ).loc main_arg19) := by
  show StableHlo.after hostOps1 (W2 m ρ c) (Proc.devRef .tc main_arg19) = _
  dsimp only [hostOps1]; after_results; exact k2_main_arg19 m ρ c
theorem k3_main_arg20 : W3 m ρ c (Proc.devRef .tc main_arg20) = m ((c : Thread nD τ).loc main_arg20) := by
  show StableHlo.after hostOps1 (W2 m ρ c) (Proc.devRef .tc main_arg20) = _
  dsimp only [hostOps1]; after_results; exact k2_main_arg20 m ρ c
theorem k3_main_arg21 : W3 m ρ c (Proc.devRef .tc main_arg21) = m ((c : Thread nD τ).loc main_arg21) := by
  show StableHlo.after hostOps1 (W2 m ρ c) (Proc.devRef .tc main_arg21) = _
  dsimp only [hostOps1]; after_results; exact k2_main_arg21 m ρ c
theorem k4_main_arg2 : W4 m ρ c (Proc.devRef .tc main_arg2) = m ((c : Thread nD τ).loc main_arg2) :=
  (W4_of_ne m ρ c main_arg2 (by decide)).trans (k3_main_arg2 m ρ c)
theorem k4_main_arg3 : W4 m ρ c (Proc.devRef .tc main_arg3) = m ((c : Thread nD τ).loc main_arg3) :=
  (W4_of_ne m ρ c main_arg3 (by decide)).trans (k3_main_arg3 m ρ c)
theorem k4_main_arg18 : W4 m ρ c (Proc.devRef .tc main_arg18) = m ((c : Thread nD τ).loc main_arg18) :=
  (W4_of_ne m ρ c main_arg18 (by decide)).trans (k3_main_arg18 m ρ c)
theorem k4_main_arg19 : W4 m ρ c (Proc.devRef .tc main_arg19) = m ((c : Thread nD τ).loc main_arg19) :=
  (W4_of_ne m ρ c main_arg19 (by decide)).trans (k3_main_arg19 m ρ c)
theorem k4_main_arg20 : W4 m ρ c (Proc.devRef .tc main_arg20) = m ((c : Thread nD τ).loc main_arg20) :=
  (W4_of_ne m ρ c main_arg20 (by decide)).trans (k3_main_arg20 m ρ c)
theorem k4_main_arg21 : W4 m ρ c (Proc.devRef .tc main_arg21) = m ((c : Thread nD τ).loc main_arg21) :=
  (W4_of_ne m ρ c main_arg21 (by decide)).trans (k3_main_arg21 m ρ c)
theorem k5_main_arg3 : W5 m ρ c (Proc.devRef .tc main_arg3) = m ((c : Thread nD τ).loc main_arg3) := by
  show StableHlo.after hostOps2 (W4 m ρ c) (Proc.devRef .tc main_arg3) = _
  dsimp only [hostOps2]; after_results; exact k4_main_arg3 m ρ c
theorem k5_main_arg18 : W5 m ρ c (Proc.devRef .tc main_arg18) = m ((c : Thread nD τ).loc main_arg18) := by
  show StableHlo.after hostOps2 (W4 m ρ c) (Proc.devRef .tc main_arg18) = _
  dsimp only [hostOps2]; after_results; exact k4_main_arg18 m ρ c
theorem k5_main_arg19 : W5 m ρ c (Proc.devRef .tc main_arg19) = m ((c : Thread nD τ).loc main_arg19) := by
  show StableHlo.after hostOps2 (W4 m ρ c) (Proc.devRef .tc main_arg19) = _
  dsimp only [hostOps2]; after_results; exact k4_main_arg19 m ρ c
theorem k5_main_arg21 : W5 m ρ c (Proc.devRef .tc main_arg21) = m ((c : Thread nD τ).loc main_arg21) := by
  show StableHlo.after hostOps2 (W4 m ρ c) (Proc.devRef .tc main_arg21) = _
  dsimp only [hostOps2]; after_results; exact k4_main_arg21 m ρ c

/-! ## The first aggregation and the first launch -/

set_option maxHeartbeats 2000000 in
/-- The host's first stretch leaves the aggregated node features: the reference's aggregation of the node features
    along the edge list. -/
theorem agg_in : W1 m ρ c (Proc.devRef .tc main_v14) = Cert.ReferenceIdeal.Read.val_main_v14 (F := Ideal) (m ((c : Thread nD τ).loc main_arg0)) (m ((c : Thread nD τ).loc main_arg1)) := by
  show StableHlo.after hostOps0 (W0 m ρ c) (Proc.devRef .tc main_v14) = _
  dsimp only [hostOps0]; after_results_simp
  rfl

/-- The edge list's source row, as the first stretch leaves it and the first launch keeps it. -/
theorem src_kept : W2 m ρ c (Proc.devRef .tc main_v1) = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    dsimp only [hostOps0]; after_results; rfl)

/-- The edge list's destination row, likewise. -/
theorem dst_kept : W2 m ρ c (Proc.devRef .tc main_v3) = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    dsimp only [hostOps0]; after_results; rfl)

/-- After the first launch its output holds the first convolution's perceptron of the aggregated node features. -/
theorem out1 : W2 m ρ c (Proc.devRef .tc main_v15)
    = mlp1 (n := 100000) (Cert.ReferenceIdeal.Read.val_main_v14 (F := Ideal) (m ((c : Thread nD τ).loc main_arg0)) (m ((c : Thread nD τ).loc main_arg1))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W2_arr m ρ c 9).trans ((Region0.final (V1 m ρ) c).trans ?_)
  show mlp1 (n := 100000) (W1 m ρ c (Proc.devRef .tc main_v14)) (W1 m ρ c (Proc.devRef .tc main_arg4)) (W1 m ρ c (Proc.devRef .tc main_arg5)) (W1 m ρ c (Proc.devRef .tc main_arg6)) (W1 m ρ c (Proc.devRef .tc main_arg7)) (W1 m ρ c (Proc.devRef .tc main_arg8)) (W1 m ρ c (Proc.devRef .tc main_arg9)) (W1 m ρ c (Proc.devRef .tc main_arg10)) (W1 m ρ c (Proc.devRef .tc main_arg11)) = _
  rw [agg_in, k1_main_arg4, k1_main_arg5, k1_main_arg6, k1_main_arg7, k1_main_arg8, k1_main_arg9, k1_main_arg10, k1_main_arg11]

/-! ## The second aggregation and the second launch -/

set_option maxHeartbeats 2000000 in
/-- The host's second stretch leaves the aggregation of the first launch's output along the same edge list. -/
theorem agg_hid : W3 m ρ c (Proc.devRef .tc main_v26)
    = Cert.ReferenceIdeal.Read.val_main_v14 (F := Ideal) (W2 m ρ c (Proc.devRef .tc main_v15)) (m ((c : Thread nD τ).loc main_arg1)) := by
  show StableHlo.after hostOps1 (W2 m ρ c) (Proc.devRef .tc main_v26) = _
  dsimp only [hostOps1]; after_results_simp
  rw [src_kept, dst_kept]
  rfl

/-- After the second launch its output holds the second convolution's layer of the aggregated hidden features. -/
theorem out2 : W4 m ρ c (Proc.devRef .tc main_v27)
    = mlp2 (n := 100000) (Cert.ReferenceIdeal.Read.val_main_v14 (F := Ideal) (W2 m ρ c (Proc.devRef .tc main_v15)) (m ((c : Thread nD τ).loc main_arg1))) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W4_arr m ρ c 7).trans ((Region1.final (V3 m ρ) c).trans ?_)
  show mlp2 (n := 100000) (W3 m ρ c (Proc.devRef .tc main_v26)) (W3 m ρ c (Proc.devRef .tc main_arg12)) (W3 m ρ c (Proc.devRef .tc main_arg13)) (W3 m ρ c (Proc.devRef .tc main_arg14)) (W3 m ρ c (Proc.devRef .tc main_arg15)) (W3 m ρ c (Proc.devRef .tc main_arg16)) (W3 m ρ c (Proc.devRef .tc main_arg17)) = _
  rw [agg_hid, k3_main_arg12, k3_main_arg13, k3_main_arg14, k3_main_arg15, k3_main_arg16, k3_main_arg17]

/-! ## The pooling, the weight's two halves and the third launch -/

/-- The host's third stretch pools the second launch's output per graph. -/
theorem pooled : W5 m ρ c (Proc.devRef .tc main_v30)
    = Cert.ReferenceIdeal.RefValue.pool (W4 m ρ c (Proc.devRef .tc main_v27)) (m ((c : Thread nD τ).loc main_arg2)) := by
  show StableHlo.after hostOps2 (W4 m ρ c) (Proc.devRef .tc main_v30) = _
  dsimp only [hostOps2]; after_results
  rw [k4_main_arg2]
  rfl

/-- The classifier weight's rows 0…63. -/
abbrev wLo : S64x10.Idx → EReal := extractStridedSlice S64x10 ![0, 0] (m ((c : Thread nD τ).loc main_arg20)) slices_S128x10_S64x10_0_0
/-- The classifier weight's rows 64…127. -/
abbrev wHi : S64x10.Idx → EReal := extractStridedSlice S64x10 ![64, 0] (m ((c : Thread nD τ).loc main_arg20)) slices_S128x10_S64x10_64_0

theorem lo_in : W5 m ρ c (Proc.devRef .tc main_v31) = wLo m c := by
  show StableHlo.after hostOps2 (W4 m ρ c) (Proc.devRef .tc main_v31) = _
  dsimp only [hostOps2]; after_results
  rw [k4_main_arg20]

theorem hi_in : W5 m ρ c (Proc.devRef .tc main_v32) = wHi m c := by
  show StableHlo.after hostOps2 (W4 m ρ c) (Proc.devRef .tc main_v32) = _
  dsimp only [hostOps2]; after_results
  rw [k4_main_arg20]

theorem wLo_apply (k : Fin 64) (q : Fin 10) :
    wLo m c (ix2 k q) = (m ((c : Thread nD τ).loc main_arg20)) (ix2 (⟨k.val, by have := k.isLt; omega⟩ : Fin 128) q) :=
  extractStridedSlice_apply ![0, 0] _ slices_S128x10_S64x10_0_0 (ix2 k q) (ix2 (⟨k.val, by have := k.isLt; omega⟩ : Fin 128) q)
    (fun a => match a with
      | ⟨0, _⟩ => by show k.val = 0 + k.val; omega
      | ⟨1, _⟩ => by show q.val = 0 + q.val; omega)

theorem wHi_apply (k : Fin 64) (q : Fin 10) :
    wHi m c (ix2 k q) = (m ((c : Thread nD τ).loc main_arg20)) (ix2 (⟨64 + k.val, by have := k.isLt; omega⟩ : Fin 128) q) :=
  extractStridedSlice_apply ![64, 0] _ slices_S128x10_S64x10_64_0 (ix2 k q) (ix2 (⟨64 + k.val, by have := k.isLt; omega⟩ : Fin 128) q)
    (fun a => match a with
      | ⟨0, _⟩ => by show 64 + k.val = 64 + k.val; rfl
      | ⟨1, _⟩ => by show q.val = 0 + q.val; omega)

/-- THE RESULT ARRAY of the idealized kernel, as a function of the launch memory: the classifier of the pooled second
    convolution of the aggregated first convolution of the aggregated node features. -/
theorem result : W6 m ρ c (Proc.devRef .tc main_v33)
    = head (n := 1000) (m := 10)
        (Cert.ReferenceIdeal.RefValue.pool (mlp2 (n := 100000) (Cert.ReferenceIdeal.Read.val_main_v14 (F := Ideal)
          (mlp1 (n := 100000) (Cert.ReferenceIdeal.Read.val_main_v14 (F := Ideal) (m ((c : Thread nD τ).loc main_arg0)) (m ((c : Thread nD τ).loc main_arg1))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg1))) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) (m ((c : Thread nD τ).loc main_arg2)))
        (m ((c : Thread nD τ).loc main_arg3)) (m ((c : Thread nD τ).loc main_arg18)) (m ((c : Thread nD τ).loc main_arg19)) (wLo m c) (wHi m c) (m ((c : Thread nD τ).loc main_arg21)) := by
  refine (W6_arr m ρ c 7).trans ((Region2.final (V5 m ρ) c).trans ?_)
  show head (n := 1000) (m := 10) (W5 m ρ c (Proc.devRef .tc main_v30)) (W5 m ρ c (Proc.devRef .tc main_arg3))
      (W5 m ρ c (Proc.devRef .tc main_arg18)) (W5 m ρ c (Proc.devRef .tc main_arg19)) (W5 m ρ c (Proc.devRef .tc main_v31))
      (W5 m ρ c (Proc.devRef .tc main_v32)) (W5 m ρ c (Proc.devRef .tc main_arg21)) = _
  rw [pooled, k5_main_arg3, k5_main_arg18, k5_main_arg19, lo_in, hi_in, k5_main_arg21, out2, out1]

end Cert.KernelIdeal.Fold

end
-- ==== Proof.RefMlp1.lean ====
/-
  The reference's first convolution, read as mathematics.

  Every bias and batch-norm parameter enters the reference as a length-64 array broadcast along the rows: first to a
  `[1, 64]` array, then to `[100000, 64]`; at `(p, q)` that array holds the parameter's entry `q` (`row_bcast`).  With
  that, the reference's stages from the first matrix product to its first rectifier are, entry by entry, the hidden
  activation `Net.hid1` of the aggregated features, and the stages up to the third rectifier are `Net.mlp1`: the
  reference applies the rectifier once more than the network's definition does, which changes nothing since
  `max (max z 0) 0 = max z 0`.  The aggregated features (the node features plus the sum of their neighbours') stay the
  opaque array `val_main_v14 x0 x1` throughout: nothing here looks inside the gather or the scatter-add.
-/
import proofs.«108532_j51857435132129_1_alg».proof.Proof.Gen.ReferenceIdeal.Read
import proofs.«108532_j51857435132129_1_alg».proof.Proof.Spec

noncomputable section

namespace Cert.ReferenceIdeal.RefValue

open Cert.ReferenceIdeal Cert.ReferenceIdeal.Read Idealize.ShloMosaic Idealize.ShloMosaic.ValueIdx Cert.Net

/-- A length-64 parameter broadcast along 100000 rows holds, at `(p, q)`, its entry `q`. -/
theorem row_bcast (x : S64.Idx → EReal) : val_main_v17 (F := Ideal) x = fun i => x (ix1 (i 1)) := by
  funext i
  rw [val_main_v17_apply, val_main_v16_apply]
  exact congrArg x (funext fun a => Fin.ext (by match a with | ⟨0, _⟩ => rfl))

/-- The matrix product of the aggregated features with the first weight, at `(p, q)`: row `p` against column `q`. -/
theorem dot1_apply (h : S100000x64.Idx → EReal) (W : S64x64.Idx → EReal) (p : Fin 100000) (q : Fin 64)
    (lidx : S100000x64.Idx → Fin 64 → S100000x64.Idx) (ridx : S100000x64.Idx → Fin 64 → S64x64.Idx)
    (hl : ∀ i k, (lidx i k 0).val = (i 0).val ∧ (lidx i k 1).val = k.val)
    (hr : ∀ i k, (ridx i k 0).val = k.val ∧ (ridx i k 1).val = (i 1).val) :
    (∑ k : Fin 64, h (lidx (ix2 p q) k) * W (ridx (ix2 p q) k)) = ∑ k : Fin 64, h (ix2 p k) * W (ix2 k q) := by
  refine Finset.sum_congr rfl fun k _ => ?_
  have el : lidx (ix2 p q) k = ix2 p k := funext fun a => Fin.ext (by
    match a with
    | ⟨0, _⟩ => exact (hl _ k).1
    | ⟨1, _⟩ => exact (hl _ k).2)
  have er : ridx (ix2 p q) k = ix2 k q := funext fun a => Fin.ext (by
    match a with
    | ⟨0, _⟩ => exact (hr _ k).1
    | ⟨1, _⟩ => exact (hr _ k).2)
  rw [el, er]

variable (x0 : S100000x64.Idx → EReal) (x1 : (⟨S2x1200000, .i32⟩ : BufTy).Contents (Elt Ideal))
  (x4 : S64x64.Idx → EReal) (x5 x6 x7 x8 x9 : S64.Idx → EReal) (x10 : S64x64.Idx → EReal) (x11 : S64.Idx → EReal)

/-- The reference's stages up to its first rectifier are the hidden activation of the aggregated features. -/
theorem ref_hid1 : val_main_v34 (F := Ideal) x0 x1 x4 x5 x6 x7 x8 x9
    = hid1 (val_main_v14 (F := Ideal) x0 x1) x4 x5 x6 x7 x8 x9 := by
  have e20 : val_main_v20 (F := Ideal) x8 = val_main_v17 (F := Ideal) x8 := rfl
  have e23 : val_main_v23 (F := Ideal) x6 = val_main_v17 (F := Ideal) x6 := rfl
  have e29 : val_main_v29 (F := Ideal) x9 = val_main_v17 (F := Ideal) (val_main_v27 (F := Ideal) x9) := rfl
  have e32 : val_main_v32 (F := Ideal) x7 = val_main_v17 (F := Ideal) x7 := rfl
  funext i
  obtain ⟨p, q, rfl⟩ : ∃ (p : Fin 100000) (q : Fin 64), i = ix2 p q := ⟨i 0, i 1, eq_ix2 i⟩
  rw [val_main_v34_apply, val_main_v33_apply, val_main_v30_apply, val_main_v24_apply, val_main_v21_apply,
    val_main_v18_apply, val_main_v15_apply, e20, e23, e29, e32, row_bcast, row_bcast, row_bcast, row_bcast, row_bcast]
  rw [dot1_apply (val_main_v14 (F := Ideal) x0 x1) x4 p q lidx_main_v15 ridx_main_v15
    (fun _ _ => ⟨rfl, rfl⟩) (fun _ _ => ⟨rfl, rfl⟩)]
  rfl

/-- The reference's stages up to its third rectifier are the first convolution's perceptron of the aggregated
    features. -/
theorem ref_mlp1 : val_main_v40 (F := Ideal) x0 x1 x4 x5 x6 x7 x8 x9 x10 x11
    = mlp1 (val_main_v14 (F := Ideal) x0 x1) x4 x5 x6 x7 x8 x9 x10 x11 := by
  have e37 : val_main_v37 (F := Ideal) x11 = val_main_v17 (F := Ideal) x11 := rfl
  funext i
  obtain ⟨p, q, rfl⟩ : ∃ (p : Fin 100000) (q : Fin 64), i = ix2 p q := ⟨i 0, i 1, eq_ix2 i⟩
  rw [val_main_v40_apply, val_main_v39_apply, val_main_v38_apply, val_main_v35_apply, ref_hid1, e37, row_bcast]
  rw [dot1_apply (hid1 (val_main_v14 (F := Ideal) x0 x1) x4 x5 x6 x7 x8 x9) x10 p q lidx_main_v35 ridx_main_v35
    (fun _ _ => ⟨rfl, rfl⟩) (fun _ _ => ⟨rfl, rfl⟩)]
  show max (max (linAt _ x10 x11 p q) zero) zero = relu (linAt _ x10 x11 p q)
  exact relu_relu _

end Cert.ReferenceIdeal.RefValue

end
-- ==== Proof.RefMlp2.lean ====
/-
  The reference's second convolution, read as mathematics.

  The second aggregation is the first one's operations again, applied to the first convolution's output: the gather of
  neighbour rows, their scatter-add into a zero array and the sum with the features themselves are the very function
  `val_main_v14` of a feature array and the edge list that produced the first aggregated features (`ref_agg2`: both
  sides unfold to one expression).  Its stages from the matrix product to the second of its two rectifiers are, entry
  by entry, `Net.mlp2` of the aggregated features; the doubled rectifier is one rectifier.
-/
import proofs.«108532_j51857435132129_1_alg».proof.Proof.RefMlp1

noncomputable section

namespace Cert.ReferenceIdeal.RefValue

open Cert.ReferenceIdeal Cert.ReferenceIdeal.Read Idealize.ShloMosaic Idealize.ShloMosaic.ValueIdx Cert.Net

variable (x0 : S100000x64.Idx → EReal) (x1 : (⟨S2x1200000, .i32⟩ : BufTy).Contents (Elt Ideal))
  (x2 : (⟨S100000, .i32⟩ : BufTy).Contents (Elt Ideal)) (x3 : S1000x64.Idx → EReal)
  (x4 : S64x64.Idx → EReal) (x5 x6 x7 x8 x9 : S64.Idx → EReal) (x10 : S64x64.Idx → EReal) (x11 : S64.Idx → EReal)
  (x12 : S64x64.Idx → EReal) (x13 x14 x15 x16 x17 : S64.Idx → EReal) (x18 : S64x64.Idx → EReal) (x19 : S64.Idx → EReal)
  (x20 : S128x10.Idx → EReal) (x21 : S10.Idx → EReal)

/-- The second aggregation is the first aggregation's function, of the first convolution's output. -/
theorem ref_agg2 : val_main_v51 (F := Ideal) x0 x1 x4 x5 x6 x7 x8 x9 x10 x11
    = val_main_v14 (F := Ideal) (val_main_v40 (F := Ideal) x0 x1 x4 x5 x6 x7 x8 x9 x10 x11) x1 := rfl

/-- The reference's stages from the second matrix product to the fifth rectifier are the second convolution's layer of
    the aggregated hidden features. -/
theorem ref_mlp2 : val_main_v72 (F := Ideal) x0 x1 x4 x5 x6 x7 x8 x9 x10 x11 x12 x13 x14 x15 x16 x17
    = mlp2 (val_main_v51 (F := Ideal) x0 x1 x4 x5 x6 x7 x8 x9 x10 x11) x12 x13 x14 x15 x16 x17 := by
  have e54 : val_main_v54 (F := Ideal) x13 = val_main_v17 (F := Ideal) x13 := rfl
  have e57 : val_main_v57 (F := Ideal) x16 = val_main_v17 (F := Ideal) x16 := rfl
  have e60 : val_main_v60 (F := Ideal) x14 = val_main_v17 (F := Ideal) x14 := rfl
  have e66 : val_main_v66 (F := Ideal) x17 = val_main_v17 (F := Ideal) (val_main_v64 (F := Ideal) x17) := rfl
  have e69 : val_main_v69 (F := Ideal) x15 = val_main_v17 (F := Ideal) x15 := rfl
  funext i
  obtain ⟨p, q, rfl⟩ : ∃ (p : Fin 100000) (q : Fin 64), i = ix2 p q := ⟨i 0, i 1, eq_ix2 i⟩
  rw [val_main_v72_apply, val_main_v71_apply, val_main_v70_apply, val_main_v67_apply, val_main_v61_apply, val_main_v58_apply,
    val_main_v55_apply, val_main_v52_apply, e54, e57, e60, e66, e69, row_bcast, row_bcast, row_bcast, row_bcast, row_bcast]
  rw [dot1_apply (val_main_v51 (F := Ideal) x0 x1 x4 x5 x6 x7 x8 x9 x10 x11) x12 p q lidx_main_v52 ridx_main_v52
    (fun _ _ => ⟨rfl, rfl⟩) (fun _ _ => ⟨rfl, rfl⟩)]
  show max (max (bnAt x14 x15 x16 x17 (linAt _ x12 x13 p q) q) zero) zero = relu (bnAt x14 x15 x16 x17 (linAt _ x12 x13 p q) q)
  exact relu_relu _

end Cert.ReferenceIdeal.RefValue

end
-- ==== Proof.RefHead.lean ====
/-
  The reference's classifier, read as mathematics.

  The reference pools the node features per graph (a scatter-add, kept opaque: `val_main_v75`), embeds the topological
  features (`relu (topo · Wt + bt)`: `ref_topo`), joins the two `[1000, 64]` arrays side by side into a `[1000, 128]`
  array and multiplies it by the `[128, 10]` weight.  Entry `(p, q)` of that product is a sum over 128 terms; its first
  64 terms meet the left array against the weight's rows 0…63, its last 64 the right array against rows 64…127.  So with
  `Wc₁`, `Wc₂` ANY two `[64, 10]` arrays holding those two row halves of the weight, the reference's result is
  `Net.head`: addition on the extended reals is associative and commutative, which is all the split of the sum uses.
-/
import proofs.«108532_j51857435132129_1_alg».proof.Proof.RefMlp2
import Idealize.ShloMosaic.Lib.Pipeline.Value

noncomputable section

set_option maxRecDepth 16384

namespace Cert.ReferenceIdeal.RefValue

open Cert.ReferenceIdeal Cert.ReferenceIdeal.Read Idealize.ShloMosaic Idealize.ShloMosaic.ValueIdx Cert.Net

/-- A length-64 parameter broadcast along 1000 rows holds, at `(p, q)`, its entry `q`. -/
theorem row_bcast_topo (x : S64.Idx → EReal) : val_main_v78 (F := Ideal) x = fun i => x (ix1 (i 1)) := by
  funext i
  rw [val_main_v78_apply, val_main_v77_apply]
  exact congrArg x (funext fun a => Fin.ext (by match a with | ⟨0, _⟩ => rfl))

/-- The length-10 bias broadcast along 1000 rows holds, at `(p, q)`, its entry `q`. -/
theorem row_bcast_cls (x : S10.Idx → EReal) : val_main_v84 (F := Ideal) x = fun i => x (ix1 (i 1)) := by
  funext i
  rw [val_main_v84_apply, val_main_v83_apply]
  exact congrArg x (funext fun a => Fin.ext (by match a with | ⟨0, _⟩ => rfl))

/-- The left array of a side-by-side join, read at a column below 64. -/
theorem concat_left (A B : S1000x64.Idx → EReal) (hc : Shape.Concatenates [S1000x64, S1000x64] S1000x128 1) (p : Fin 1000) (k : Fin 64) :
    concatenate S1000x128 1 [⟨S1000x64, A⟩, ⟨S1000x64, B⟩] hc
      (ix2 p (⟨k.val, by have := k.isLt; omega⟩ : Fin 128)) = A (ix2 p k) :=
  concatenate_pair_apply_left 1 A B hc _ rfl (ix2 p k) (fun b => by
    match b with
    | ⟨0, _⟩ => rfl
    | ⟨1, _⟩ => rfl)

/-- The right array of a side-by-side join, read at column `64 + k`. -/
theorem concat_right (A B : S1000x64.Idx → EReal) (hc : Shape.Concatenates [S1000x64, S1000x64] S1000x128 1) (p : Fin 1000) (k : Fin 64) :
    concatenate S1000x128 1 [⟨S1000x64, A⟩, ⟨S1000x64, B⟩] hc
      (ix2 p (⟨64 + k.val, by have := k.isLt; omega⟩ : Fin 128)) = B (ix2 p k) :=
  concatenate_pair_apply_right 1 A B hc _ rfl rfl (ix2 p k) (fun b hb => by
    match b with
    | ⟨0, _⟩ => rfl
    | ⟨1, _⟩ => exact absurd rfl hb) (by show k.val + 64 = 64 + k.val; omega)

variable (x0 : S100000x64.Idx → EReal) (x1 : (⟨S2x1200000, .i32⟩ : BufTy).Contents (Elt Ideal))
  (x2 : (⟨S100000, .i32⟩ : BufTy).Contents (Elt Ideal)) (x3 : S1000x64.Idx → EReal)
  (x4 : S64x64.Idx → EReal) (x5 x6 x7 x8 x9 : S64.Idx → EReal) (x10 : S64x64.Idx → EReal) (x11 : S64.Idx → EReal)
  (x12 : S64x64.Idx → EReal) (x13 x14 x15 x16 x17 : S64.Idx → EReal) (x18 : S64x64.Idx → EReal) (x19 : S64.Idx → EReal)
  (x20 : S128x10.Idx → EReal) (x21 : S10.Idx → EReal)

/-- The embedded topological features. -/
theorem ref_topo : val_main_v80 (F := Ideal) x3 x18 x19 = fun i => topoAt x3 x18 x19 (i 0) (i 1) := by
  funext i
  obtain ⟨p, q, rfl⟩ : ∃ (p : Fin 1000) (q : Fin 64), i = ix2 p q := ⟨i 0, i 1, eq_ix2 i⟩
  rw [val_main_v80_apply, val_main_v79_apply, val_main_v76_apply, row_bcast_topo]
  have hs : (∑ k : Fin 64, x3 (lidx_main_v76 (ix2 p q) k) * x18 (ridx_main_v76 (ix2 p q) k))
      = ∑ k : Fin 64, x3 (ix2 p k) * x18 (ix2 k q) := by
    refine Finset.sum_congr rfl fun k _ => ?_
    have el : lidx_main_v76 (ix2 p q) k = ix2 p k := funext fun a => Fin.ext (by
      match a with
      | ⟨0, _⟩ => rfl
      | ⟨1, _⟩ => rfl)
    have er : ridx_main_v76 (ix2 p q) k = ix2 k q := funext fun a => Fin.ext (by
      match a with
      | ⟨0, _⟩ => rfl
      | ⟨1, _⟩ => rfl)
    rw [el, er]
  rw [hs]
  rfl

/-- The reference's result is the classifier of the pooled features, the topological features and the parameters, for
    any two arrays holding the two row halves of the classifier's weight. -/
theorem ref_head (Wc₁ Wc₂ : Mat 64 10)
    (h₁ : ∀ (k : Fin 64) (q : Fin 10), Wc₁ (ix2 k q) = x20 (ix2 (⟨k.val, by have := k.isLt; omega⟩ : Fin 128) q))
    (h₂ : ∀ (k : Fin 64) (q : Fin 10), Wc₂ (ix2 k q) = x20 (ix2 (⟨64 + k.val, by have := k.isLt; omega⟩ : Fin 128) q)) :
    val_main_v85 (F := Ideal) x0 x1 x2 x3 x4 x5 x6 x7 x8 x9 x10 x11 x12 x13 x14 x15 x16 x17 x18 x19 x20 x21
      = head (val_main_v75 (F := Ideal) x0 x1 x2 x4 x5 x6 x7 x8 x9 x10 x11 x12 x13 x14 x15 x16 x17) x3 x18 x19 Wc₁ Wc₂ x21 := by
  funext i
  obtain ⟨p, q, rfl⟩ : ∃ (p : Fin 1000) (q : Fin 10), i = ix2 p q := ⟨i 0, i 1, eq_ix2 i⟩
  rw [val_main_v85_apply, val_main_v82_apply, row_bcast_cls]
  show (∑ k : Fin 128, val_main_v81 (F := Ideal) x0 x1 x2 x3 x4 x5 x6 x7 x8 x9 x10 x11 x12 x13 x14 x15 x16 x17 x18 x19 (lidx_main_v82 (ix2 p q) k) * x20 (ridx_main_v82 (ix2 p q) k)) + x21 (ix1 q)
    = ((∑ k : Fin 64, val_main_v75 (F := Ideal) x0 x1 x2 x4 x5 x6 x7 x8 x9 x10 x11 x12 x13 x14 x15 x16 x17 (ix2 p k) * Wc₁ (ix2 k q))
        + (∑ k : Fin 64, topoAt x3 x18 x19 p k * Wc₂ (ix2 k q))) + x21 (ix1 q)
  rw [sum_split_128]
  refine congrArg₂ (· + ·) (congrArg₂ (· + ·) ?_ ?_) rfl
  · refine Finset.sum_congr rfl fun k _ => ?_
    have el : lidx_main_v82 (ix2 p q) (⟨k.val, by have := k.isLt; omega⟩ : Fin 128)
        = ix2 p (⟨k.val, by have := k.isLt; omega⟩ : Fin 128) := funext fun a => Fin.ext (by
      match a with
      | ⟨0, _⟩ => rfl
      | ⟨1, _⟩ => rfl)
    have er : ridx_main_v82 (ix2 p q) (⟨k.val, by have := k.isLt; omega⟩ : Fin 128)
        = ix2 (⟨k.val, by have := k.isLt; omega⟩ : Fin 128) q := funext fun a => Fin.ext (by
      match a with
      | ⟨0, _⟩ => rfl
      | ⟨1, _⟩ => rfl)
    rw [el, er, h₁]
    unfold val_main_v81
    rw [concat_left]
  · refine Finset.sum_congr rfl fun k _ => ?_
    have el : lidx_main_v82 (ix2 p q) (⟨64 + k.val, by have := k.isLt; omega⟩ : Fin 128)
        = ix2 p (⟨64 + k.val, by have := k.isLt; omega⟩ : Fin 128) := funext fun a => Fin.ext (by
      match a with
      | ⟨0, _⟩ => rfl
      | ⟨1, _⟩ => rfl)
    have er : ridx_main_v82 (ix2 p q) (⟨64 + k.val, by have := k.isLt; omega⟩ : Fin 128)
        = ix2 (⟨64 + k.val, by have := k.isLt; omega⟩ : Fin 128) q := funext fun a => Fin.ext (by
      match a with
      | ⟨0, _⟩ => rfl
      | ⟨1, _⟩ => rfl)
    rw [el, er, h₂]
    unfold val_main_v81
    rw [concat_right, ref_topo]

end Cert.ReferenceIdeal.RefValue

end
-- ==== Proof.lean ====
/-
  A graph network with two neighbourhood-sum convolutions, a per-graph sum pooling and a linear classifier, computed
  two ways, gives the same `[1000, 10]` array of extended reals.

  Both programs aggregate the node features along the edge list (each node's row plus the sum of its in-neighbours'
  rows: a gather and a scatter-add on the host), push them through a two-layer perceptron with a batch normalisation,
  aggregate again, push the result through one more normalised layer, sum the rows of each graph, and classify the
  pooled features together with a rectified linear embedding of the graphs' topological features.

  One program does the three dense stages in kernels: the first two over twenty blocks of 5000 node rows each, the
  third in one piece, and it multiplies the pooled and the embedded features by the two row halves of the classifier's
  weight separately and adds the products.  The other does everything with whole-array operations, applies the
  rectifier a second time after each convolution, and multiplies the side-by-side join of the pooled and the embedded
  features by the whole weight.

  On the extended reals a change of float format is the identity and every operation is exact, so:
    * the dense stages act row by row, and the blocks tile the rows: twenty blocks of a stage are the stage of the
      whole array (Region0, Region1; Region2 for the single block);
    * `max (max z 0) 0 = max z 0`: the doubled rectifier is one rectifier;
    * a sum of 128 products is the sum of its first 64 plus the sum of its last 64, because addition of extended reals
      is associative and commutative: the joined product is the sum of the two half products.
  None of this needs the inputs to be finite, so the precondition is never opened.  The aggregations and the pooling
  are the same host operations in both programs; they are carried as opaque functions of their operands.

  The kernel program's run is its frame run with the result array named (KernelRun), the result array followed back
  to the launch memory (Fold); the reference's run and its operations one at a time are read from its own text
  (RefMlp1, RefMlp2, RefPool, RefHead).  Nothing was rewritten when the kernel program was idealized, so the
  idealization's side of the claim is trivial.
-/
import proofs.«108532_j51857435132129_1_alg».proof.Defs
import proofs.«108532_j51857435132129_1_alg».proof.Proof.Gen.Kernel
import proofs.«108532_j51857435132129_1_alg».proof.Proof.Gen.Kernel.Skeleton
import proofs.«108532_j51857435132129_1_alg».proof.Proof.Gen.Kernel.Launch
import proofs.«108532_j51857435132129_1_alg».proof.Proof.Gen.Kernel.Points
import proofs.«108532_j51857435132129_1_alg».proof.Proof.Gen.Kernel.Frame
import proofs.«108532_j51857435132129_1_alg».proof.Proof.Gen.KernelIdeal
import proofs.«108532_j51857435132129_1_alg».proof.Proof.Gen.KernelIdeal.Skeleton
import proofs.«108532_j51857435132129_1_alg».proof.Proof.Gen.KernelIdeal.Launch
import proofs.«108532_j51857435132129_1_alg».proof.Proof.Gen.KernelIdeal.Points
import proofs.«108532_j51857435132129_1_alg».proof.Proof.Gen.KernelIdeal.Frame
import proofs.«108532_j51857435132129_1_alg».proof.Proof.Gen.ReferenceIdeal
import proofs.«108532_j51857435132129_1_alg».proof.Proof.Gen.Pre_finite_inputs
import proofs.«108532_j51857435132129_1_alg».proof.Proof.Gen.ReferenceIdeal.Run
import proofs.«108532_j51857435132129_1_alg».proof.Proof.Gen.ReferenceIdeal.Read
import proofs.«108532_j51857435132129_1_alg».proof.Proof.KernelRun
import proofs.«108532_j51857435132129_1_alg».proof.Proof.Fold
import proofs.«108532_j51857435132129_1_alg».proof.Proof.RefHead
import proofs.«108532_j51857435132129_1_alg».proof.Proof.RefPool
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten in reading the kernel program on the extended reals. -/
theorem preserves : Cert.preserves_Kernel_KernelIdeal := trivial

/-- From memories that agree on the arguments the two programs end with the same result array: the kernel program's
    is the classifier of the pooled second convolution of the aggregated first convolution of the aggregated node
    features (`Fold.result`), and so is the reference's, stage by stage. -/
theorem algebraic : Cert.algebraic_KernelIdeal_ReferenceIdeal := by
  intro m ρ m' ρ' _ hagree
  refine ⟨fun c => Cert.KernelIdeal.Gen.W6 (F := Ideal) m ρ c (Proc.devRef .tc Cert.KernelIdeal.main_v33),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21⟩ := hagree c
  refine Eq.trans ?_ (Cert.KernelIdeal.Fold.result m ρ c).symm
  rw [Cert.ReferenceIdeal.Read.val_main_v85_eq, h0, h1, h2, h3, h4, h5, h6, h7, h8, h9, h10, h11, h12, h13, h14, h15, h16, h17, h18, h19, h20, h21]
  rw [Cert.ReferenceIdeal.RefValue.ref_head (Wc₁ := Cert.KernelIdeal.Fold.wLo m c) (Wc₂ := Cert.KernelIdeal.Fold.wHi m c)
        (h₁ := Cert.KernelIdeal.Fold.wLo_apply m c) (h₂ := Cert.KernelIdeal.Fold.wHi_apply m c),
    Cert.ReferenceIdeal.RefValue.ref_pool, Cert.ReferenceIdeal.RefValue.ref_mlp2, Cert.ReferenceIdeal.RefValue.ref_agg2,
    Cert.ReferenceIdeal.RefValue.ref_mlp1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
